-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S1x256, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S_, .f32⟩
  | .hbm, ⟨57, _⟩ => ⟨S50000x64, .f32⟩
  | .hbm, ⟨58, _⟩ => ⟨S850000x1, .i32⟩
  | .hbm, ⟨59, _⟩ => ⟨S50000x64, .f32⟩
  | .hbm, ⟨60, _⟩ => ⟨S1x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x256, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x64, .f32⟩
  | .hbm, ⟨118, _⟩ => ⟨S50000x64, .f32⟩
  | .hbm, ⟨119, _⟩ => ⟨S50000x64, .f32⟩
  | .hbm, ⟨120, _⟩ => ⟨S_, .f32⟩
  | .hbm, ⟨121, _⟩ => ⟨S50000, .f32⟩
  | .hbm, ⟨122, _⟩ => ⟨S50000x1, .f32⟩
  | .hbm, ⟨123, _⟩ => ⟨S50000x1, .f32⟩
  | .hbm, ⟨124, _⟩ => ⟨S50000x64, .f32⟩
  | .hbm, ⟨125, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The kernel program's run with its result named.

  @main is three kernel regions among stretches of host operations.  Every weakly fair execution ends with every
  buffer that outlives a region at the contents the last region leaves: the fold, through the host stretches and the
  regions' write-backs, of the launch memory.  The frame claim keeps of this only the argument arrays; here the result
  array is kept as well, at that fold's contents, which the value lemmas then read.
-/
import proofs.«141565_j47107201302761_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the last
    region leaves and the argument arrays as launched. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.Spec.lean ====
/-
  A two-layer graph convolution with symmetric degree scaling, followed by a row-wise log-softmax, on the
  extended reals: the two arrangements of the scaling and the law that joins them.

  Every node p has a scale dis p (the reciprocal square root of its degree, or zero), every edge e a source row
  src e, and E p is the set of edges that land at node p.  One arrangement scales at the nodes: the rows H i are
  multiplied by dis i before they are gathered and summed, and the sum at p is multiplied by dis p afterwards.  The
  other scales at the edges: the gathered row of edge e is multiplied by dis (src e) * dis (dst e), where dst e = p for
  an edge that lands at p.  Multiplication does not distribute over addition on the extended reals in general, but a
  factor that is nonnegative and not +∞ does; dis p is such a factor whatever the degree is, because the reciprocal
  square root of a positive extended real is a nonnegative real.  So the two sums agree with no condition on the rows.
-/
import Mathlib.Data.EReal.Operations
import Idealize.ShloMosaic.PureOps.Ideal
import proofs.«141565_j47107201302761_2_alg».proof.Proof.LibERealSum

noncomputable section

open scoped BigOperators

namespace Cert.Gcn

open Idealize.ShloMosaic

/-- The reciprocal square root of a positive extended real is a nonnegative real (at +∞ it is 0). -/
theorem rsqrt_of_pos {y : EReal} (hy : 0 < y) : 0 ≤ Ideal.rsqrt y ∧ Ideal.rsqrt y ≠ ⊤ := by
  induction y using EReal.rec with
  | bot => exact absurd hy (by simp)
  | top => exact ⟨le_refl _, EReal.zero_ne_top⟩
  | coe r =>
    have hr : 0 < r := by exact_mod_cast hy
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact ⟨by exact_mod_cast (inv_nonneg.mpr (Real.sqrt_nonneg r)), EReal.coe_ne_top _⟩

/-- The scale of a node: the reciprocal square root of max deg ε where deg exceeds z, else z'.  With z = z' = 0 it
    is a nonnegative real for every extended-real deg and ε: where it is a reciprocal square root, its argument is at
    least deg, which is positive there. -/
theorem scale_nonneg_ne_top (deg eps z z' : EReal) (hz : z = 0) (hz' : z' = 0) :
    0 ≤ Scalar.select (Ideal.cmp .ogt deg z) (Ideal.rsqrt (max deg eps)) z'
      ∧ Scalar.select (Ideal.cmp .ogt deg z) (Ideal.rsqrt (max deg eps)) z' ≠ ⊤ := by
  subst hz hz'
  unfold Scalar.select Ideal.cmp
  by_cases h : (0 : EReal) < deg
  · rw [if_pos (by simp [h])]
    exact rsqrt_of_pos (lt_of_lt_of_le h (le_max_left _ _))
  · rw [if_neg (by simp [h])]
    exact ⟨le_refl _, EReal.zero_ne_top⟩

variable {N R A B C : ℕ}

/-- A plain matrix product. -/
def mm (X : Fin N → Fin A → EReal) (W : Fin A → Fin B → EReal) (i : Fin N) (j : Fin B) : EReal :=
  ∑ l, X i l * W l j

/-- Scaling at the nodes: the rows are scaled before the edges gather them, and the sum at p once more after. -/
def aggNode (dis : Fin N → EReal) (src : Fin R → Fin N) (E : Fin N → Finset (Fin R))
    (H : Fin N → Fin B → EReal) (p : Fin N) (j : Fin B) : EReal :=
  dis p * (0 + ∑ e ∈ E p, H (src e) j * dis (src e))

/-- Scaling at the edges: the row edge e gathers is multiplied by the product of its two end nodes' scales. -/
def aggEdge (dis : Fin N → EReal) (src dst : Fin R → Fin N) (E : Fin N → Finset (Fin R))
    (H : Fin N → Fin B → EReal) (p : Fin N) (j : Fin B) : EReal :=
  0 + ∑ e ∈ E p, H (src e) j * (dis (src e) * dis (dst e))

/-- The two arrangements agree when every scale is a nonnegative real and every edge of E p ends at p. -/
theorem aggNode_eq_aggEdge (dis : Fin N → EReal) (src dst : Fin R → Fin N) (E : Fin N → Finset (Fin R))
    (hdis : ∀ i, 0 ≤ dis i ∧ dis i ≠ ⊤) (hE : ∀ p, ∀ e ∈ E p, dst e = p) (H : Fin N → Fin B → EReal) :
    aggNode dis src E H = aggEdge dis src dst E H := by
  funext p j
  unfold aggNode aggEdge
  rw [zero_add, zero_add, Cert.Lib.ERealSum.mul_sum_const _ _ (hdis p).1 (hdis p).2]
  refine Finset.sum_congr rfl fun e he => ?_
  rw [hE p e he, mul_comm (dis p) _, mul_assoc]

/-- A layer's activation: the aggregated row plus the bias, cut off below at zr. -/
def hidden (b : Fin B → EReal) (zr : EReal) (G : Fin N → Fin B → EReal) (i : Fin N) (j : Fin B) : EReal :=
  max (G i j + b j) zr

/-- The log-softmax of a row: each entry less the row's maximum (taken from ninf), less the logarithm of the sum
    of the exponentials of those differences. -/
def lsm (ninf : EReal) (z : Fin C → EReal) (k : Fin C) : EReal :=
  (z k - max ninf ((Finset.univ : Finset (Fin C)).fold max ninf z))
    - Ideal.log (∑ d, Ideal.exp (z d - max ninf ((Finset.univ : Finset (Fin C)).fold max ninf z)))

/-- The whole computation with the scaling at the nodes. -/
def outNode (dis : Fin N → EReal) (src : Fin R → Fin N) (E : Fin N → Finset (Fin R))
    (X : Fin N → Fin A → EReal) (W1 : Fin A → Fin B → EReal) (b1 : Fin B → EReal)
    (W2 : Fin B → Fin C → EReal) (b2 : Fin C → EReal) (zr ninf : EReal) (p : Fin N) (k : Fin C) : EReal :=
  lsm ninf (fun k' => aggNode dis src E (mm (hidden b1 zr (aggNode dis src E (mm X W1))) W2) p k' + b2 k') k

/-- The whole computation with the scaling at the edges. -/
def outEdge (dis : Fin N → EReal) (src dst : Fin R → Fin N) (E : Fin N → Finset (Fin R))
    (X : Fin N → Fin A → EReal) (W1 : Fin A → Fin B → EReal) (b1 : Fin B → EReal)
    (W2 : Fin B → Fin C → EReal) (b2 : Fin C → EReal) (zr ninf : EReal) (p : Fin N) (k : Fin C) : EReal :=
  lsm ninf (fun k' => aggEdge dis src dst E (mm (hidden b1 zr (aggEdge dis src dst E (mm X W1))) W2) p k' + b2 k') k

theorem outNode_eq_outEdge (dis : Fin N → EReal) (src dst : Fin R → Fin N) (E : Fin N → Finset (Fin R))
    (hdis : ∀ i, 0 ≤ dis i ∧ dis i ≠ ⊤) (hE : ∀ p, ∀ e ∈ E p, dst e = p)
    (X : Fin N → Fin A → EReal) (W1 : Fin A → Fin B → EReal) (b1 : Fin B → EReal)
    (W2 : Fin B → Fin C → EReal) (b2 : Fin C → EReal) (zr ninf : EReal) :
    outNode dis src E X W1 b1 W2 b2 zr ninf = outEdge dis src dst E X W1 b1 W2 b2 zr ninf := by
  funext p k
  unfold outNode outEdge
  rw [aggNode_eq_aggEdge dis src dst E hdis hE, aggNode_eq_aggEdge dis src dst E hdis hE]

end Cert.Gcn

end
-- ==== Proof.KBody.lean ====
/-
  The three kernel bodies read at an entry, on the extended reals.

  Each body loads whole blocks of 5000 rows and stores one whole block, so its stored value is one function of the loaded
  blocks.  Row r of the stored block depends only on row r of the row-wise operands (the features or the aggregated rows,
  and the scale column) and on the whole of the small operands (the weights, the bias row):
    first body   (x · W)[r, q] · dis[r];
    second body  (max (dis[r] · agg[r, ·] + b, 0) · W)[r, q] · dis[r];
    third body   the log-softmax of the row dis[r] · agg[r, ·] + b, at q.
  A change of float format is the identity here, the matrix unit's product onto a zero array is the plain sum of products,
  and the two row reductions are the fold of max from -∞ and the plain sum.
-/
import proofs.«141565_j47107201302761_2_alg».proof.Proof.Gen.KernelIdeal.Skeleton
import proofs.«141565_j47107201302761_2_alg».proof.Proof.LibPlainMatmul
import proofs.«141565_j47107201302761_2_alg».proof.Proof.LibKeepdims
import proofs.«141565_j47107201302761_2_alg».proof.Proof.LibRowOps
import proofs.«141565_j47107201302761_2_alg».proof.Proof.LibRowMax
import proofs.«141565_j47107201302761_2_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Body

open Idealize.ShloMosaic Idealize.ShloMosaic.ValueIdx Cert.KernelIdeal Cert.KernelIdeal.Gen

/-- A scale column [a, 1], repeated along the columns, times an [a, b] array: at (r, l) the row's scale times the entry. -/
theorem scaled_apply {a b : ℕ} (d : FVec Ideal ⟨2, ![a, 1]⟩ .f32) (g : FVec Ideal ⟨2, ![a, b]⟩ .f32)
    (h1 : (⟨2, ![a, 1]⟩ : Shape).ShapeCasts ⟨2, ![a, 1]⟩) (h2 : (⟨2, ![a, b]⟩ : Shape).ShapeCasts ⟨2, ![a, b]⟩)
    (hb : (⟨2, ![a, 1]⟩ : Shape).Broadcasts ⟨2, ![a, b]⟩) (r : Fin a) (l : Fin b) :
    mulf (broadcastTo ⟨2, ![a, b]⟩ (shapeCast ⟨2, ![a, 1]⟩ d h1) hb) (shapeCast ⟨2, ![a, b]⟩ g h2) (ix2 r l)
      = d (ix2 r (0 : Fin 1)) * g (ix2 r l) := by
  rw [shapeCast_self, shapeCast_self]
  exact congrArg (· * g (ix2 r l)) (Cert.Keepdims.column_repeat_apply d hb r l)

/-- A bias row [1, b] repeated along the rows: at (r, l) the bias of column l. -/
theorem bias_apply {a b : ℕ} (v : FVec Ideal ⟨2, ![1, b]⟩ .f32)
    (h1 : (⟨2, ![1, b]⟩ : Shape).ShapeCasts ⟨2, ![1, b]⟩) (hb : (⟨2, ![1, b]⟩ : Shape).Broadcasts ⟨2, ![a, b]⟩)
    (r : Fin a) (l : Fin b) :
    broadcastTo ⟨2, ![a, b]⟩ (shapeCast ⟨2, ![1, b]⟩ v h1) hb (ix2 r l) = v (ix2 (0 : Fin 1) l) := by
  rw [shapeCast_self]
  exact broadcastTo_1b_ab_apply v hb r l

/-- The first body at (r, q): the product's entry times the row's scale. -/
theorem pay0_apply (x0 : FVec Ideal S5000x128 .f32) (x1 : FVec Ideal S128x256 .f32) (x2 : FVec Ideal S5000x1 .f32)
    (r : Fin 5000) (q : Fin 256) :
    k0_pay1 (F := Ideal) x0 x1 x2 (ix2 r q)
      = (∑ l : Fin 128, x0 (ix2 r l) * x1 (ix2 l q)) * x2 (ix2 r (0 : Fin 1)) := by
  unfold k0_pay1
  refine (mulf_apply _ _ _).trans ?_
  refine congrArg₂ (· * ·) ?_ ?_
  · exact Cert.PlainMatmul.zero_acc_apply dot_S5000x128_S128x256_S5000x256_1_0_0_1_n_n_wf none _ _ r q
  · rw [shapeCast_self]
    exact Cert.Keepdims.column_repeat_apply x2 broadcasts_S5000x1_S5000x256 r q

/-- The second body at (r, q): the activation row times the weights, times the row's scale. -/
theorem pay1_apply (d : FVec Ideal S5000x1 .f32) (g : FVec Ideal S5000x256 .f32) (b : FVec Ideal S1x256 .f32)
    (w : FVec Ideal S256x64 .f32) (d' : FVec Ideal S5000x1 .f32) (r : Fin 5000) (q : Fin 64) :
    k1_pay1 (F := Ideal) d g b w d' (ix2 r q)
      = (∑ l : Fin 256, max (d (ix2 r (0 : Fin 1)) * g (ix2 r l) + b (ix2 (0 : Fin 1) l)) (Ideal.ofBits .f32 0x00000000#32)
            * w (ix2 l q)) * d' (ix2 r (0 : Fin 1)) := by
  unfold k1_pay1
  refine (mulf_apply _ _ _).trans ?_
  refine congrArg₂ (· * ·) ?_ ?_
  · refine (Cert.PlainMatmul.zero_acc_apply dot_S5000x256_S256x64_S5000x64_1_0_0_1_n_n_wf none _ _ r q).trans ?_
    refine Finset.sum_congr rfl fun l _ => congrArg (· * w (ix2 l q)) ?_
    refine (maximumf_apply _ _ _).trans ?_
    refine congrArg₂ max ?_ rfl
    refine (addf_apply _ _ _).trans ?_
    exact congrArg₂ (· + ·) (scaled_apply d g _ _ broadcasts_S5000x1_S5000x256 r l)
      (bias_apply b _ broadcasts_S1x256_S5000x256 r l)
  · rw [shapeCast_self]
    exact Cert.Keepdims.column_repeat_apply d' broadcasts_S5000x1_S5000x64 r q

/-- The third body at (r, q): the log-softmax of the scaled row plus the bias. -/
theorem pay2_apply (d : FVec Ideal S5000x1 .f32) (g : FVec Ideal S5000x64 .f32) (b : FVec Ideal S1x64 .f32)
    (r : Fin 5000) (q : Fin 64) :
    k2_pay1 (F := Ideal) d g b (ix2 r q)
      = Cert.Gcn.lsm (Ideal.ofBits .f32 0xFF800000#32)
          (fun k : Fin 64 => d (ix2 r (0 : Fin 1)) * g (ix2 r k) + b (ix2 (0 : Fin 1) k)) q := by
  have hz : ∀ k : Fin 64,
      addf (mulf (broadcastTo S5000x64 (shapeCast S5000x1 d shapeCasts_S5000x1_S5000x1) broadcasts_S5000x1_S5000x64)
          (shapeCast S5000x64 g shapeCasts_S5000x64_S5000x64))
        (broadcastTo S5000x64 (shapeCast S1x64 b shapeCasts_S1x64_S1x64) broadcasts_S1x64_S5000x64) (ix2 r k)
      = d (ix2 r (0 : Fin 1)) * g (ix2 r k) + b (ix2 (0 : Fin 1) k) := fun k =>
    (addf_apply _ _ _).trans (congrArg₂ (· + ·) (scaled_apply d g _ _ broadcasts_S5000x1_S5000x64 r k)
      (bias_apply b _ broadcasts_S1x64_S5000x64 r k))
  unfold k2_pay1 Cert.Gcn.lsm
  dsimp only
  generalize hZ : addf (mulf (broadcastTo S5000x64 (shapeCast S5000x1 d shapeCasts_S5000x1_S5000x1) broadcasts_S5000x1_S5000x64)
          (shapeCast S5000x64 g shapeCasts_S5000x64_S5000x64))
        (broadcastTo S5000x64 (shapeCast S1x64 b shapeCasts_S1x64_S1x64) broadcasts_S1x64_S5000x64) = Z at hz ⊢
  simp only [← hz]
  -- the row maximum, kept as a column and repeated
  have hmax : ∀ k : Fin 64,
      broadcastTo S5000x64 (shapeCast S5000x1 (maximumf (broadcast S5000 (Scalar.ofBits (F := Ideal) .f32 0xFF800000#32))
          (multiReduction .maximumf [1] S5000 Z 0xFF800000#32 reduces_S5000x64_S5000 (.inl rfl) rfl))
        shapeCasts_S5000_S5000x1) broadcasts_S5000x1_S5000x64 (ix2 r k)
      = max (Ideal.ofBits .f32 0xFF800000#32)
          ((Finset.univ : Finset (Fin 64)).fold max (Ideal.ofBits .f32 0xFF800000#32) (fun e => Z (ix2 r e))) := fun k =>
    (Cert.RowOps.column_repeated_apply _ shapeCasts_S5000_S5000x1 broadcasts_S5000x1_S5000x64 r k).trans
      ((maximumf_apply _ _ _).trans (congrArg₂ max rfl
        (Cert.RowMax.max_over_columns_apply Z reduces_S5000x64_S5000 (.inl rfl) rfl r)))
  refine (subf_apply _ _ _).trans ?_
  refine congrArg₂ (· - ·) ((subf_apply _ _ _).trans (congrArg (Z (ix2 r q) - ·) (hmax q))) ?_
  refine (Cert.Keepdims.column_repeat_apply _ broadcasts_S5000x1_S5000x64 r q).trans ?_
  show Ideal.log _ = Ideal.log _
  refine congrArg Ideal.log ?_
  refine (Cert.Keepdims.column_cast_apply _ shapeCasts_S5000_S5000x1 r).trans ?_
  refine (Cert.RowOps.sum_over_columns_apply _ reduces_S5000x64_S5000 (.inl rfl) rfl r).trans ?_
  refine Finset.sum_congr rfl fun e _ => ?_
  show Ideal.exp _ = Ideal.exp _
  exact congrArg Ideal.exp ((subf_apply _ _ _).trans (congrArg (Z (ix2 r e) - ·) (hmax e)))

end Cert.KernelIdeal.Body

end
-- ==== Proof.KFinal0.lean ====
/-
  The first region's result array as one function of the arrays the region finds.

  The grid has ten points; point t stages rows 5000 t … 5000 t + 4999 of the features and of the scale column, the whole
  weight matrix, and writes back rows 5000 t … 5000 t + 4999 of the result.  Row r of the block point t writes is the
  body's row r of its blocks, which is row 5000 t + r of the whole arrays; the ten blocks tile the result.  So the result
  holds, at (p, q), the product's entry (x · W)[p, q] times dis[p].
-/
import proofs.«141565_j47107201302761_2_alg».proof.Proof.Gen.KernelIdeal.Frame
import proofs.«141565_j47107201302761_2_alg».proof.Proof.KBody
import Idealize.ShloMosaic.Lib.Pipeline.Value
import Idealize.ShloMosaic.Lib.ValueIdx

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row and the column of an entry of a two-axis array. -/
abbrev rowOf {a b : ℕ} (i : (⟨2, ![a, b]⟩ : Shape).Idx) : Fin a := ⟨(i 0).val, idx2_lt0 i⟩
abbrev colOf {a b : ℕ} (i : (⟨2, ![a, b]⟩ : Shape).Idx) : Fin b := ⟨(i 1).val, idx2_lt1 i⟩

/-- The first region's result: at (p, q) the product's entry times the scale of row p. -/
def G0 (x : S50000x128.Idx → EReal) (w : S128x256.Idx → EReal) (d : S50000x1.Idx → EReal) : S50000x256.Idx → EReal :=
  fun i => (∑ l : Fin 128, x (ix2 (rowOf i) l) * w (ix2 l (colOf i))) * d (ix2 (rowOf i) (0 : Fin 1))

/-- The printed index maps over the grid: the row-wise windows take block t at point t, the weights always block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed0_eq (c : Dev nD) (t : Fin cfg0.N) :
    (dat0 V c).flushed 3 t
      = ((cfg0.win 3).blk t).view.read (Elt Ideal) (G0 (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S5000x1) hz]
  obtain ⟨e00, e01, e10, e11, e20, e21, e30, e31⟩ := idx_facts0 t
  refine funext fun (j : S5000x256.Idx) => ?_
  obtain ⟨r, q, rfl⟩ : ∃ (r : Fin 5000) (q : Fin 256), j = ix2 r q := ⟨j 0, j 1, eq_ix2 j⟩
  show k0_pay1 (F := Ideal) (iblk0 V c 0 t) (iblk0 V c 1 t) (iblk0 V c 2 t) (ix2 r q)
    = G0 (V c main_arg0) (V c main_arg2) (V c main_v17) (((cfg0.win 3).blk t).view.emb (ix2 r q))
  refine (Cert.KernelIdeal.Body.pay0_apply (iblk0 V c 0 t) (iblk0 V c 1 t) (iblk0 V c 2 t) r q).trans ?_
  unfold G0
  refine congrArg₂ (· * ·) (Finset.sum_congr rfl fun l _ => congrArg₂ (· * ·) ?_ ?_) ?_
  · show V c main_arg0 (((cfg0.win 0).blk t).view.emb (ix2 r l)) = _
    refine congrArg (V c main_arg0) (funext fun a => Fin.ext ?_)
    match a with
    | ⟨0, _⟩ =>
      show win0_0.index t (0 : Fin 2) * 5000 + 1 * r.val = win0_3.index t (0 : Fin 2) * 5000 + 1 * r.val
      omega
    | ⟨1, _⟩ =>
      show win0_0.index t (1 : Fin 2) * 128 + 1 * l.val = l.val
      omega
  · show V c main_arg2 (((cfg0.win 1).blk t).view.emb (ix2 l q)) = _
    refine congrArg (V c main_arg2) (funext fun a => Fin.ext ?_)
    match a with
    | ⟨0, _⟩ =>
      show win0_1.index t (0 : Fin 2) * 128 + 1 * l.val = l.val
      omega
    | ⟨1, _⟩ =>
      show win0_1.index t (1 : Fin 2) * 256 + 1 * q.val = win0_3.index t (1 : Fin 2) * 256 + 1 * q.val
      omega
  · show V c main_v17 (((cfg0.win 2).blk t).view.emb (ix2 r (0 : Fin 1))) = _
    refine congrArg (V c main_v17) (funext fun a => Fin.ext ?_)
    match a with
    | ⟨0, _⟩ =>
      show win0_2.index t (0 : Fin 2) * 5000 + 1 * r.val = win0_3.index t (0 : Fin 2) * 5000 + 1 * r.val
      omega
    | ⟨1, _⟩ =>
      show win0_2.index t (1 : Fin 2) * 1 + 1 * 0 = 0
      omega

/-- An entry of the result array is in point t's block iff its row and column are in the block's ranges. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v18).slice (win0_3.rect t)).set ↔ _
  rw [View.set_slice_whole, Rect.mem_set_unit]
  exact Iff.rfl

/-- The ten blocks cover the result array: row p is in the block of point p / 5000. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The result array after the region. -/
theorem final0 (c : Dev nD) :
    (dat0 V c).arrAt 3 cfg0.N = G0 (V c main_arg0) (V c main_arg2) (V c main_v17) :=
  (dat0 V c).arrAt_eq_of_cover 3 _ (fun t _ => flushed0_eq V c t) cover0

end Cert.KernelIdeal.Final

end
-- ==== Proof.KFinal1.lean ====
/-
  The second region's result array as one function of the arrays the region finds.

  Point t of the ten stages rows 5000 t … 5000 t + 4999 of the aggregated rows and of the scale column, the whole bias row
  and the whole weight matrix, and writes back the same rows of the result; the ten blocks tile it.  At (p, q) the result
  holds the row of activations max (dis[p] · agg[p, ·] + b, 0) times the weights' column q, times dis[p].
-/
import proofs.«141565_j47107201302761_2_alg».proof.Proof.KFinal0

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second region's result: at (p, q) the activation row of p times the weights, times the scale of row p. -/
def G1 (g : S50000x256.Idx → EReal) (d : S50000x1.Idx → EReal) (b : S1x256.Idx → EReal) (w : S256x64.Idx → EReal) :
    S50000x64.Idx → EReal :=
  fun i => (∑ l : Fin 256, max (d (ix2 (rowOf i) (0 : Fin 1)) * g (ix2 (rowOf i) l) + b (ix2 (0 : Fin 1) l))
      (Ideal.ofBits .f32 0x00000000#32) * w (ix2 l (colOf i))) * d (ix2 (rowOf i) (0 : Fin 1))

/-- The printed index maps over the grid: the row-wise windows take block t at point t, the bias and the weights block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array function. -/
theorem flushed1_eq (c : Dev nD) (t : Fin cfg1.N) :
    (dat1 V c).flushed 4 t
      = ((cfg1.win 4).blk t).view.read (Elt Ideal) (G1 (V c main_v28) (V c main_v17) (V c main_v29) (V c main_arg4)) := by
  show (cfg1.win 4).cut (grid1.coords t) ((dat1 V c).after 4 t) = _
  rw [after1_4]
  unfold out1_4
  rw [View.canon_unit_zero hz]
  simp only [View.ld_unit_zero (S := S5000x256) hz, View.ld_unit_zero (S := S5000x1) hz, View.ld_unit_zero (S := S1x256) hz,
    View.ld_unit_zero (S := S256x64) hz]
  obtain ⟨e00, e01, e10, e11, e20, e21, e30, e31, e40, e41⟩ := idx_facts1 t
  refine funext fun (j : S5000x64.Idx) => ?_
  obtain ⟨r, q, rfl⟩ : ∃ (r : Fin 5000) (q : Fin 64), j = ix2 r q := ⟨j 0, j 1, eq_ix2 j⟩
  show k1_pay1 (F := Ideal) (iblk1 V c 1 t) (iblk1 V c 0 t) (iblk1 V c 2 t) (iblk1 V c 3 t) (iblk1 V c 1 t) (ix2 r q)
    = G1 (V c main_v28) (V c main_v17) (V c main_v29) (V c main_arg4) (((cfg1.win 4).blk t).view.emb (ix2 r q))
  refine (Cert.KernelIdeal.Body.pay1_apply (iblk1 V c 1 t) (iblk1 V c 0 t) (iblk1 V c 2 t) (iblk1 V c 3 t) (iblk1 V c 1 t) r q).trans ?_
  unfold G1
  have hd : iblk1 V c 1 t (ix2 r (0 : Fin 1))
      = V c main_v17 (ix2 (rowOf (((cfg1.win 4).blk t).view.emb (ix2 r q))) (0 : Fin 1)) := by
    show V c main_v17 (((cfg1.win 1).blk t).view.emb (ix2 r (0 : Fin 1))) = _
    refine congrArg (V c main_v17) (funext fun a => Fin.ext ?_)
    match a with
    | ⟨0, _⟩ =>
      show win1_1.index t (0 : Fin 2) * 5000 + 1 * r.val = win1_4.index t (0 : Fin 2) * 5000 + 1 * r.val
      omega
    | ⟨1, _⟩ =>
      show win1_1.index t (1 : Fin 2) * 1 + 1 * 0 = 0
      omega
  refine congrArg₂ (· * ·) (Finset.sum_congr rfl fun l _ => congrArg₂ (· * ·)
    (congrArg₂ max (congrArg₂ (· + ·) (congrArg₂ (· * ·) hd ?_) ?_) rfl) ?_) hd
  · show V c main_v28 (((cfg1.win 0).blk t).view.emb (ix2 r l)) = _
    refine congrArg (V c main_v28) (funext fun a => Fin.ext ?_)
    match a with
    | ⟨0, _⟩ =>
      show win1_0.index t (0 : Fin 2) * 5000 + 1 * r.val = win1_4.index t (0 : Fin 2) * 5000 + 1 * r.val
      omega
    | ⟨1, _⟩ =>
      show win1_0.index t (1 : Fin 2) * 256 + 1 * l.val = l.val
      omega
  · show V c main_v29 (((cfg1.win 2).blk t).view.emb (ix2 (0 : Fin 1) l)) = _
    refine congrArg (V c main_v29) (funext fun a => Fin.ext ?_)
    match a with
    | ⟨0, _⟩ =>
      show win1_2.index t (0 : Fin 2) * 1 + 1 * 0 = 0
      omega
    | ⟨1, _⟩ =>
      show win1_2.index t (1 : Fin 2) * 256 + 1 * l.val = l.val
      omega
  · show V c main_arg4 (((cfg1.win 3).blk t).view.emb (ix2 l q)) = _
    refine congrArg (V c main_arg4) (funext fun a => Fin.ext ?_)
    match a with
    | ⟨0, _⟩ =>
      show win1_3.index t (0 : Fin 2) * 256 + 1 * l.val = l.val
      omega
    | ⟨1, _⟩ =>
      show win1_3.index t (1 : Fin 2) * 64 + 1 * q.val = win1_4.index t (1 : Fin 2) * 64 + 1 * q.val
      omega

/-- An entry of the result array is in point t's block iff its row and column are in the block's ranges. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v30).slice (win1_4.rect t)).set ↔ _
  rw [View.set_slice_whole, Rect.mem_set_unit]
  exact Iff.rfl

/-- The ten blocks cover the result array: row p is in the block of point p / 5000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The result array after the region. -/
theorem final1 (c : Dev nD) :
    (dat1 V c).arrAt 4 cfg1.N = G1 (V c main_v28) (V c main_v17) (V c main_v29) (V c main_arg4) :=
  (dat1 V c).arrAt_eq_of_cover 4 _ (fun t _ => flushed1_eq V c t) cover1

end Cert.KernelIdeal.Final

end
-- ==== Proof.KFinal2.lean ====
/-
  The third region's result array as one function of the arrays the region finds.

  Point t of the ten stages rows 5000 t … 5000 t + 4999 of the aggregated rows and of the scale column and the whole bias
  row, and writes back the same rows of the result; the ten blocks tile it.  Row p of the result is the log-softmax of
  the row dis[p] · agg[p, ·] + b.
-/
import proofs.«141565_j47107201302761_2_alg».proof.Proof.KFinal0

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The third region's result: row p is the log-softmax of the scaled aggregated row plus the bias. -/
def G2 (g : S50000x64.Idx → EReal) (d : S50000x1.Idx → EReal) (b : S1x64.Idx → EReal) : S50000x64.Idx → EReal :=
  fun i => Cert.Gcn.lsm (Ideal.ofBits .f32 0xFF800000#32)
    (fun k : Fin 64 => d (ix2 (rowOf i) (0 : Fin 1)) * g (ix2 (rowOf i) k) + b (ix2 (0 : Fin 1) k)) (colOf i)

/-- The printed index maps over the grid: the row-wise windows take block t at point t, the bias block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function. -/
theorem flushed2_eq (c : Dev nD) (t : Fin cfg2.N) :
    (dat2 V c).flushed 3 t
      = ((cfg2.win 3).blk t).view.read (Elt Ideal) (G2 (V c main_v40) (V c main_v17) (V c main_v41)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts2 t
  refine funext fun (j : S5000x64.Idx) => ?_
  obtain ⟨r, q, rfl⟩ : ∃ (r : Fin 5000) (q : Fin 64), j = ix2 r q := ⟨j 0, j 1, eq_ix2 j⟩
  show k2_pay1 (F := Ideal) (iblk2 V c 1 t) (iblk2 V c 0 t) (iblk2 V c 2 t) (ix2 r q)
    = G2 (V c main_v40) (V c main_v17) (V c main_v41) (((cfg2.win 3).blk t).view.emb (ix2 r q))
  refine (Cert.KernelIdeal.Body.pay2_apply (iblk2 V c 1 t) (iblk2 V c 0 t) (iblk2 V c 2 t) r q).trans ?_
  unfold G2
  have hd : iblk2 V c 1 t (ix2 r (0 : Fin 1))
      = V c main_v17 (ix2 (rowOf (((cfg2.win 3).blk t).view.emb (ix2 r q))) (0 : Fin 1)) := by
    show V c main_v17 (((cfg2.win 1).blk t).view.emb (ix2 r (0 : Fin 1))) = _
    refine congrArg (V c main_v17) (funext fun a => Fin.ext ?_)
    match a with
    | ⟨0, _⟩ =>
      show win2_1.index t (0 : Fin 2) * 5000 + 1 * r.val = win2_3.index t (0 : Fin 2) * 5000 + 1 * r.val
      omega
    | ⟨1, _⟩ =>
      show win2_1.index t (1 : Fin 2) * 1 + 1 * 0 = 0
      omega
  have hq : q = colOf (((cfg2.win 3).blk t).view.emb (ix2 r q)) := by
    refine Fin.ext ?_
    show q.val = win2_3.index t (1 : Fin 2) * 64 + 1 * q.val
    omega
  refine congrArg₂ (fun z k => Cert.Gcn.lsm (Ideal.ofBits .f32 0xFF800000#32) z k) (funext fun k => ?_) hq
  refine congrArg₂ (· + ·) (congrArg₂ (· * ·) hd ?_) ?_
  · show V c main_v40 (((cfg2.win 0).blk t).view.emb (ix2 r k)) = _
    refine congrArg (V c main_v40) (funext fun a => Fin.ext ?_)
    match a with
    | ⟨0, _⟩ =>
      show win2_0.index t (0 : Fin 2) * 5000 + 1 * r.val = win2_3.index t (0 : Fin 2) * 5000 + 1 * r.val
      omega
    | ⟨1, _⟩ =>
      show win2_0.index t (1 : Fin 2) * 64 + 1 * k.val = k.val
      omega
  · show V c main_v41 (((cfg2.win 2).blk t).view.emb (ix2 (0 : Fin 1) k)) = _
    refine congrArg (V c main_v41) (funext fun a => Fin.ext ?_)
    match a with
    | ⟨0, _⟩ =>
      show win2_2.index t (0 : Fin 2) * 1 + 1 * 0 = 0
      omega
    | ⟨1, _⟩ =>
      show win2_2.index t (1 : Fin 2) * 64 + 1 * k.val = k.val
      omega

/-- An entry of the result array is in point t's block iff its row and column are in the block's ranges. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v42).slice (win2_3.rect t)).set ↔ _
  rw [View.set_slice_whole, Rect.mem_set_unit]
  exact Iff.rfl

/-- The ten blocks cover the result array: row p is in the block of point p / 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The result array after the region. -/
theorem final2 (c : Dev nD) :
    (dat2 V c).arrAt 3 cfg2.N = G2 (V c main_v40) (V c main_v17) (V c main_v41) :=
  (dat2 V c).arrAt_eq_of_cover 3 _ (fun t _ => flushed2_eq V c t) cover2

end Cert.KernelIdeal.Final

end
-- ==== Proof.KValue.lean ====
/-
  The kernel program's result array as one function of the argument arrays.

  @main computes the edge words and the scale vector on the host, then alternates three kernel regions with two host
  stretches that gather rows at the source column and accumulate them at the destination column.  Each region's result
  array is one function of the arrays it finds (the three region modules); each host stretch is read from any contents;
  and a buffer that a stretch or a region does not write keeps what it held.  Walking the boundaries in order gives the
  result buffer as the third region's function of the second aggregation, which is the host's function of the second
  region's result, and so on down to the arguments.
-/
import proofs.«141565_j47107201302761_2_alg».proof.Proof.Gen.KernelIdeal.Frame
import proofs.«141565_j47107201302761_2_alg».proof.Proof.KFinal0
import proofs.«141565_j47107201302761_2_alg».proof.Proof.KFinal1
import proofs.«141565_j47107201302761_2_alg».proof.Proof.KFinal2
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Final
open Idealize.ShloMosaic Idealize.ShloMosaic.TcCoe Idealize.SL.Sem Idealize.ShloMosaic.StableHlo

/-! ## The host's functions -/

/-- The source words: row 0 of the edge list, then the self loops 0 … 49999. -/
def srcT (x1 : IVec S2x800000 32) : IVec S850000 32 :=
  concatenate S850000 0 [⟨S800000, shapeCast S800000 (extractStridedSlice S1x800000 ![0, 0] x1 slices_S2x800000_S1x800000_0_0)
    shapeCasts_S1x800000_S800000⟩, ⟨S50000, iotaInDim S50000 32 0⟩] concatenates_S800000_S50000_S850000_d0
/-- The destination words: row 1 of the edge list, then the self loops. -/
def dstT (x1 : IVec S2x800000 32) : IVec S850000 32 :=
  concatenate S850000 0 [⟨S800000, shapeCast S800000 (extractStridedSlice S1x800000 ![1, 0] x1 slices_S2x800000_S1x800000_1_0)
    shapeCasts_S1x800000_S800000⟩, ⟨S50000, iotaInDim S50000 32 0⟩] concatenates_S800000_S50000_S850000_d0
/-- A vector of words as a column. -/
def rawCol (d : IVec S850000 32) : IVec S850000x1 32 := broadcastInDim S850000x1 ![0] bcast_S850000_S850000x1_0 d
/-- A vector of words with its negative entries wrapped by 50000, as a column. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)
/-- The degrees: ones accumulated at the destination words. -/
def degT (x1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32)) (rawCol (dstT x1))
    (broadcastInDim S850000 ![] bcast_S_S850000 (constant (F := Ideal) S_ .f32 0x3F800000#32))
/-- The scale vector: the reciprocal square root of the degree where it is positive, else zero. -/
def disT (x1 : IVec S2x800000 32) : FVec Ideal S50000 .f32 :=
  select (cmpf .ogt (degT x1) (broadcastInDim S50000 ![] bcast_S_S50000 (constant (F := Ideal) S_ .f32 0x00000000#32)))
    (Host.rsqrt (maximumf (degT x1) (broadcastInDim S50000 ![] bcast_S_S50000 (constant (F := Ideal) S_ .f32 0x2B8CBCCC#32))))
    (broadcastInDim S50000 ![] bcast_S_S50000 (id (constant (F := Ideal) S_ .f32 0x00000000#32)))
/-- The scale vector as a column. -/
def disCol (x1 : IVec S2x800000 32) : FVec Ideal S50000x1 .f32 := shapeCast S50000x1 (disT x1) shapeCasts_S50000_S50000x1
/-- Rows gathered at the wrapped source column and accumulated at the destination column, onto zero. -/
def agg256 (x1 : IVec S2x800000 32) (K : FVec Ideal S50000x256 .f32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (rawCol (dstT x1))
    (Host.gather gather_S50000x256_S850000x1_S850000x256_1_0_n_n_0_1_1256 K (wrapCol (srcT x1)))
def agg64 (x1 : IVec S2x800000 32) (K : FVec Ideal S50000x64 .f32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32)) (rawCol (dstT x1))
    (Host.gather gather_S50000x64_S850000x1_S850000x64_1_0_n_n_0_1_164 K (wrapCol (srcT x1)))

/-- The kernel program's result as one function of the six arguments. -/
def KV (x0 : FVec Ideal S50000x128 .f32) (x1 : IVec S2x800000 32) (x2 : FVec Ideal S128x256 .f32) (x3 : FVec Ideal S256 .f32)
    (x4 : FVec Ideal S256x64 .f32) (x5 : FVec Ideal S64 .f32) : S50000x64.Idx → EReal :=
  G2 (agg64 x1 (G1 (agg256 x1 (G0 x0 x2 (disCol x1))) (disCol x1) (shapeCast S1x256 x3 shapeCasts_S256_S1x256) x4))
    (disCol x1) (shapeCast S1x64 x5 shapeCasts_S64_S1x64)

/-! ## The host stretches, from any contents -/

section Stretches
variable (W : Valuation τ sig (Elt Ideal))

theorem s0_v3 : StableHlo.after (hostOps0 (F := Ideal)) W (Proc.devRef .tc main_v3) = srcT (W (Proc.devRef .tc main_arg1)) := by
  after_results
  rfl
theorem s0_v6 : StableHlo.after (hostOps0 (F := Ideal)) W (Proc.devRef .tc main_v6) = dstT (W (Proc.devRef .tc main_arg1)) := by
  after_results
  rfl
theorem s0_v12 : StableHlo.after (hostOps0 (F := Ideal)) W (Proc.devRef .tc main_v12)
    = cmpf .ogt (degT (W (Proc.devRef .tc main_arg1))) (broadcastInDim S50000 ![] bcast_S_S50000 (constant (F := Ideal) S_ .f32 0x00000000#32)) := by
  after_results
  rfl
theorem s0_v15 : StableHlo.after (hostOps0 (F := Ideal)) W (Proc.devRef .tc main_v15)
    = Host.rsqrt (maximumf (degT (W (Proc.devRef .tc main_arg1))) (broadcastInDim S50000 ![] bcast_S_S50000 (constant (F := Ideal) S_ .f32 0x2B8CBCCC#32))) := by
  after_results
  rfl
theorem s0_cst3 : StableHlo.after (hostOps0 (F := Ideal)) W (Proc.devRef .tc main_cst_3) = constant (F := Ideal) S_ .f32 0x00000000#32 := by
  after_results
theorem s0_arg0 : StableHlo.after (hostOps0 (F := Ideal)) W (Proc.devRef .tc main_arg0) = W (Proc.devRef .tc main_arg0) := by after_results
theorem s0_arg2 : StableHlo.after (hostOps0 (F := Ideal)) W (Proc.devRef .tc main_arg2) = W (Proc.devRef .tc main_arg2) := by after_results
theorem s0_arg3 : StableHlo.after (hostOps0 (F := Ideal)) W (Proc.devRef .tc main_arg3) = W (Proc.devRef .tc main_arg3) := by after_results
theorem s0_arg4 : StableHlo.after (hostOps0 (F := Ideal)) W (Proc.devRef .tc main_arg4) = W (Proc.devRef .tc main_arg4) := by after_results
theorem s0_arg5 : StableHlo.after (hostOps0 (F := Ideal)) W (Proc.devRef .tc main_arg5) = W (Proc.devRef .tc main_arg5) := by after_results

theorem s01_v16 : StableHlo.after (hostOps0_1 (F := Ideal)) W (Proc.devRef .tc main_v16)
    = select (W (Proc.devRef .tc main_v12)) (W (Proc.devRef .tc main_v15)) (broadcastInDim S50000 ![] bcast_S_S50000 (id (W (Proc.devRef .tc main_cst_3)))) := by
  after_results_simp
  rfl
theorem s01_v3 : StableHlo.after (hostOps0_1 (F := Ideal)) W (Proc.devRef .tc main_v3) = W (Proc.devRef .tc main_v3) := by after_results_simp
theorem s01_v6 : StableHlo.after (hostOps0_1 (F := Ideal)) W (Proc.devRef .tc main_v6) = W (Proc.devRef .tc main_v6) := by after_results_simp
theorem s01_arg0 : StableHlo.after (hostOps0_1 (F := Ideal)) W (Proc.devRef .tc main_arg0) = W (Proc.devRef .tc main_arg0) := by after_results_simp
theorem s01_arg2 : StableHlo.after (hostOps0_1 (F := Ideal)) W (Proc.devRef .tc main_arg2) = W (Proc.devRef .tc main_arg2) := by after_results_simp
theorem s01_arg3 : StableHlo.after (hostOps0_1 (F := Ideal)) W (Proc.devRef .tc main_arg3) = W (Proc.devRef .tc main_arg3) := by after_results_simp
theorem s01_arg4 : StableHlo.after (hostOps0_1 (F := Ideal)) W (Proc.devRef .tc main_arg4) = W (Proc.devRef .tc main_arg4) := by after_results_simp
theorem s01_arg5 : StableHlo.after (hostOps0_1 (F := Ideal)) W (Proc.devRef .tc main_arg5) = W (Proc.devRef .tc main_arg5) := by after_results_simp

theorem s02_v17 : StableHlo.after (hostOps0_2 (F := Ideal)) W (Proc.devRef .tc main_v17) = shapeCast S50000x1 (W (Proc.devRef .tc main_v16)) shapeCasts_S50000_S50000x1 := by
  after_results
  rfl
theorem s02_v3 : StableHlo.after (hostOps0_2 (F := Ideal)) W (Proc.devRef .tc main_v3) = W (Proc.devRef .tc main_v3) := by after_results
theorem s02_v6 : StableHlo.after (hostOps0_2 (F := Ideal)) W (Proc.devRef .tc main_v6) = W (Proc.devRef .tc main_v6) := by after_results
theorem s02_arg0 : StableHlo.after (hostOps0_2 (F := Ideal)) W (Proc.devRef .tc main_arg0) = W (Proc.devRef .tc main_arg0) := by after_results
theorem s02_arg2 : StableHlo.after (hostOps0_2 (F := Ideal)) W (Proc.devRef .tc main_arg2) = W (Proc.devRef .tc main_arg2) := by after_results
theorem s02_arg3 : StableHlo.after (hostOps0_2 (F := Ideal)) W (Proc.devRef .tc main_arg3) = W (Proc.devRef .tc main_arg3) := by after_results
theorem s02_arg4 : StableHlo.after (hostOps0_2 (F := Ideal)) W (Proc.devRef .tc main_arg4) = W (Proc.devRef .tc main_arg4) := by after_results
theorem s02_arg5 : StableHlo.after (hostOps0_2 (F := Ideal)) W (Proc.devRef .tc main_arg5) = W (Proc.devRef .tc main_arg5) := by after_results

theorem s1_v28 : StableHlo.after (hostOps1 (F := Ideal)) W (Proc.devRef .tc main_v28)
    = Host.scatterAdd (F := Ideal) scatter_S50000x256_S850000x1_S850000x256_1_0_0_1
        (broadcastInDim S50000x256 ![] bcast_S_S50000x256 (constant (F := Ideal) S_ .f32 0x00000000#32)) (rawCol (W (Proc.devRef .tc main_v6)))
        (Host.gather gather_S50000x256_S850000x1_S850000x256_1_0_n_n_0_1_1256 (W (Proc.devRef .tc main_v18)) (wrapCol (W (Proc.devRef .tc main_v3)))) := by
  after_results
  rfl
theorem s1_v29 : StableHlo.after (hostOps1 (F := Ideal)) W (Proc.devRef .tc main_v29) = shapeCast S1x256 (W (Proc.devRef .tc main_arg3)) shapeCasts_S256_S1x256 := by
  after_results
  rfl
theorem s1_v17 : StableHlo.after (hostOps1 (F := Ideal)) W (Proc.devRef .tc main_v17) = W (Proc.devRef .tc main_v17) := by after_results
theorem s1_v3 : StableHlo.after (hostOps1 (F := Ideal)) W (Proc.devRef .tc main_v3) = W (Proc.devRef .tc main_v3) := by after_results
theorem s1_v6 : StableHlo.after (hostOps1 (F := Ideal)) W (Proc.devRef .tc main_v6) = W (Proc.devRef .tc main_v6) := by after_results
theorem s1_arg4 : StableHlo.after (hostOps1 (F := Ideal)) W (Proc.devRef .tc main_arg4) = W (Proc.devRef .tc main_arg4) := by after_results
theorem s1_arg5 : StableHlo.after (hostOps1 (F := Ideal)) W (Proc.devRef .tc main_arg5) = W (Proc.devRef .tc main_arg5) := by after_results

theorem s2_v40 : StableHlo.after (hostOps2 (F := Ideal)) W (Proc.devRef .tc main_v40)
    = Host.scatterAdd (F := Ideal) scatter_S50000x64_S850000x1_S850000x64_1_0_0_1
        (broadcastInDim S50000x64 ![] bcast_S_S50000x64 (constant (F := Ideal) S_ .f32 0x00000000#32)) (rawCol (W (Proc.devRef .tc main_v6)))
        (Host.gather gather_S50000x64_S850000x1_S850000x64_1_0_n_n_0_1_164 (W (Proc.devRef .tc main_v30)) (wrapCol (W (Proc.devRef .tc main_v3)))) := by
  after_results
  rfl
theorem s2_v41 : StableHlo.after (hostOps2 (F := Ideal)) W (Proc.devRef .tc main_v41) = shapeCast S1x64 (W (Proc.devRef .tc main_arg5)) shapeCasts_S64_S1x64 := by
  after_results
  rfl
theorem s2_v17 : StableHlo.after (hostOps2 (F := Ideal)) W (Proc.devRef .tc main_v17) = W (Proc.devRef .tc main_v17) := by after_results

end Stretches

/-! ## The contents at each boundary -/

variable (m : (ℓ : Loc nD τ sig) → Buf (Elt Ideal) ℓ) (ρ : Dev nD → PrngReg) (c : Dev nD)

-- the arguments, the edge words and the scale column when the first region is entered
theorem e3_arg0 : W3 m ρ c (Proc.devRef .tc main_arg0) = (m ((c : Thread nD τ).loc main_arg0)) :=
  (s02_arg0 _).trans ((s01_arg0 _).trans (s0_arg0 _))
theorem e3_arg2 : W3 m ρ c (Proc.devRef .tc main_arg2) = (m ((c : Thread nD τ).loc main_arg2)) :=
  (s02_arg2 _).trans ((s01_arg2 _).trans (s0_arg2 _))
theorem e3_arg3 : W3 m ρ c (Proc.devRef .tc main_arg3) = (m ((c : Thread nD τ).loc main_arg3)) :=
  (s02_arg3 _).trans ((s01_arg3 _).trans (s0_arg3 _))
theorem e3_arg4 : W3 m ρ c (Proc.devRef .tc main_arg4) = (m ((c : Thread nD τ).loc main_arg4)) :=
  (s02_arg4 _).trans ((s01_arg4 _).trans (s0_arg4 _))
theorem e3_arg5 : W3 m ρ c (Proc.devRef .tc main_arg5) = (m ((c : Thread nD τ).loc main_arg5)) :=
  (s02_arg5 _).trans ((s01_arg5 _).trans (s0_arg5 _))
theorem e3_v3 : W3 m ρ c (Proc.devRef .tc main_v3) = srcT (m ((c : Thread nD τ).loc main_arg1)) :=
  (s02_v3 _).trans ((s01_v3 _).trans (s0_v3 _))
theorem e3_v6 : W3 m ρ c (Proc.devRef .tc main_v6) = dstT (m ((c : Thread nD τ).loc main_arg1)) :=
  (s02_v6 _).trans ((s01_v6 _).trans (s0_v6 _))
theorem e3_v17 : W3 m ρ c (Proc.devRef .tc main_v17) = disCol (m ((c : Thread nD τ).loc main_arg1)) := by
  refine (s02_v17 _).trans ?_
  unfold disCol disT
  refine congrArg (fun v => shapeCast S50000x1 v shapeCasts_S50000_S50000x1) ?_
  refine (s01_v16 _).trans ?_
  show select (W1 m ρ c (Proc.devRef .tc main_v12)) (W1 m ρ c (Proc.devRef .tc main_v15)) (broadcastInDim S50000 ![] bcast_S_S50000 (id (W1 m ρ c (Proc.devRef .tc main_cst_3)))) = _
  rw [show W1 m ρ c (Proc.devRef .tc main_v12) = _ from s0_v12 _, show W1 m ρ c (Proc.devRef .tc main_v15) = _ from s0_v15 _, show W1 m ρ c (Proc.devRef .tc main_cst_3) = _ from s0_cst3 _]

-- after the first region
theorem e4_v18 : W4 m ρ c (Proc.devRef .tc main_v18) = G0 (m ((c : Thread nD τ).loc main_arg0)) (m ((c : Thread nD τ).loc main_arg2)) (disCol (m ((c : Thread nD τ).loc main_arg1))) := by
  refine ((W4_arr m ρ c 3).trans (final0 (V3 m ρ) c)).trans ?_
  show G0 (W3 m ρ c (Proc.devRef .tc main_arg0)) (W3 m ρ c (Proc.devRef .tc main_arg2)) (W3 m ρ c (Proc.devRef .tc main_v17)) = _
  rw [e3_arg0, e3_arg2, e3_v17]
theorem e4_v17 : W4 m ρ c (Proc.devRef .tc main_v17) = disCol (m ((c : Thread nD τ).loc main_arg1)) :=
  ((W4_arr m ρ c 2).trans (((dat0 (V3 m ρ) c).arrAt_in 2 rfl _).trans (A_eq0 (V3 m ρ) c 2))).trans (e3_v17 m ρ c)
theorem e4_v3' : W4 m ρ c (Proc.devRef .tc main_v3) = W3 m ρ c (Proc.devRef .tc main_v3) := W4_of_ne m ρ c main_v3 (by decide)
theorem e4_v6' : W4 m ρ c (Proc.devRef .tc main_v6) = W3 m ρ c (Proc.devRef .tc main_v6) := W4_of_ne m ρ c main_v6 (by decide)
theorem e4_arg3' : W4 m ρ c (Proc.devRef .tc main_arg3) = W3 m ρ c (Proc.devRef .tc main_arg3) := W4_of_ne m ρ c main_arg3 (by decide)
theorem e4_arg4' : W4 m ρ c (Proc.devRef .tc main_arg4) = W3 m ρ c (Proc.devRef .tc main_arg4) := W4_of_ne m ρ c main_arg4 (by decide)
theorem e4_arg5' : W4 m ρ c (Proc.devRef .tc main_arg5) = W3 m ρ c (Proc.devRef .tc main_arg5) := W4_of_ne m ρ c main_arg5 (by decide)

-- when the second region is entered
theorem e5_v28 : W5 m ρ c (Proc.devRef .tc main_v28) = agg256 (m ((c : Thread nD τ).loc main_arg1)) (G0 (m ((c : Thread nD τ).loc main_arg0)) (m ((c : Thread nD τ).loc main_arg2)) (disCol (m ((c : Thread nD τ).loc main_arg1)))) := by
  refine (s1_v28 _).trans ?_
  show Host.scatterAdd (F := Ideal) scatter_S50000x256_S850000x1_S850000x256_1_0_0_1 _ (rawCol (W4 m ρ c (Proc.devRef .tc main_v6)))
    (Host.gather gather_S50000x256_S850000x1_S850000x256_1_0_n_n_0_1_1256 (W4 m ρ c (Proc.devRef .tc main_v18)) (wrapCol (W4 m ρ c (Proc.devRef .tc main_v3)))) = _
  rw [e4_v18, e4_v6', e4_v3', e3_v6, e3_v3]
  rfl
theorem e5_v17 : W5 m ρ c (Proc.devRef .tc main_v17) = disCol (m ((c : Thread nD τ).loc main_arg1)) := (s1_v17 _).trans (e4_v17 m ρ c)
theorem e5_v29 : W5 m ρ c (Proc.devRef .tc main_v29) = shapeCast S1x256 (m ((c : Thread nD τ).loc main_arg3)) shapeCasts_S256_S1x256 := by
  refine (s1_v29 _).trans ?_
  show shapeCast S1x256 (W4 m ρ c (Proc.devRef .tc main_arg3)) shapeCasts_S256_S1x256 = _
  rw [e4_arg3', e3_arg3]
theorem e5_arg4 : W5 m ρ c (Proc.devRef .tc main_arg4) = (m ((c : Thread nD τ).loc main_arg4)) := (s1_arg4 _).trans ((e4_arg4' m ρ c).trans (e3_arg4 m ρ c))
theorem e5_v3 : W5 m ρ c (Proc.devRef .tc main_v3) = srcT (m ((c : Thread nD τ).loc main_arg1)) := (s1_v3 _).trans ((e4_v3' m ρ c).trans (e3_v3 m ρ c))
theorem e5_v6 : W5 m ρ c (Proc.devRef .tc main_v6) = dstT (m ((c : Thread nD τ).loc main_arg1)) := (s1_v6 _).trans ((e4_v6' m ρ c).trans (e3_v6 m ρ c))
theorem e5_arg5 : W5 m ρ c (Proc.devRef .tc main_arg5) = (m ((c : Thread nD τ).loc main_arg5)) := (s1_arg5 _).trans ((e4_arg5' m ρ c).trans (e3_arg5 m ρ c))

-- after the second region
theorem e6_v30 : W6 m ρ c (Proc.devRef .tc main_v30)
    = G1 (agg256 (m ((c : Thread nD τ).loc main_arg1)) (G0 (m ((c : Thread nD τ).loc main_arg0)) (m ((c : Thread nD τ).loc main_arg2)) (disCol (m ((c : Thread nD τ).loc main_arg1))))) (disCol (m ((c : Thread nD τ).loc main_arg1)))
        (shapeCast S1x256 (m ((c : Thread nD τ).loc main_arg3)) shapeCasts_S256_S1x256) (m ((c : Thread nD τ).loc main_arg4)) := by
  refine ((W6_arr m ρ c 4).trans (final1 (V5 m ρ) c)).trans ?_
  show G1 (W5 m ρ c (Proc.devRef .tc main_v28)) (W5 m ρ c (Proc.devRef .tc main_v17)) (W5 m ρ c (Proc.devRef .tc main_v29)) (W5 m ρ c (Proc.devRef .tc main_arg4)) = _
  rw [e5_v28, e5_v17, e5_v29, e5_arg4]
theorem e6_v17 : W6 m ρ c (Proc.devRef .tc main_v17) = disCol (m ((c : Thread nD τ).loc main_arg1)) :=
  ((W6_arr m ρ c 1).trans (((dat1 (V5 m ρ) c).arrAt_in 1 rfl _).trans (A_eq1 (V5 m ρ) c 1))).trans (e5_v17 m ρ c)
theorem e6_v3 : W6 m ρ c (Proc.devRef .tc main_v3) = srcT (m ((c : Thread nD τ).loc main_arg1)) := (W6_of_ne m ρ c main_v3 (by decide)).trans (e5_v3 m ρ c)
theorem e6_v6 : W6 m ρ c (Proc.devRef .tc main_v6) = dstT (m ((c : Thread nD τ).loc main_arg1)) := (W6_of_ne m ρ c main_v6 (by decide)).trans (e5_v6 m ρ c)
theorem e6_arg5 : W6 m ρ c (Proc.devRef .tc main_arg5) = (m ((c : Thread nD τ).loc main_arg5)) := (W6_of_ne m ρ c main_arg5 (by decide)).trans (e5_arg5 m ρ c)

/-- The result buffer when @main returns. -/
theorem result_eq : W8 m ρ c (Proc.devRef .tc main_v42)
    = KV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W8_arr m ρ c 3).trans (final2 (V7 m ρ) c)).trans ?_
  show G2 (W7 m ρ c (Proc.devRef .tc main_v40)) (W7 m ρ c (Proc.devRef .tc main_v17)) (W7 m ρ c (Proc.devRef .tc main_v41)) = _
  rw [show W7 m ρ c (Proc.devRef .tc main_v40) = _ from s2_v40 _, show W7 m ρ c (Proc.devRef .tc main_v17) = _ from s2_v17 _, show W7 m ρ c (Proc.devRef .tc main_v41) = _ from s2_v41 _]
  rw [e6_v30, e6_v17, e6_v3, e6_v6, e6_arg5]
  rfl

end Cert.KernelIdeal.Val

end
-- ==== Proof.RPieces.lean ====
/-
  The reference program's 120 host operations, folded over any contents, read piece by piece.

  Every weakly fair execution of @main ends with each buffer at the contents the operations leave, folded in order over the
  launch memory (the run module).  Here that fold is read in consecutive pieces: the edge words
  (source and destination, with the self loops appended), the scale vector, the first layer up to the second product, the
  second layer up to its bias, and the row-wise log-softmax.  Each piece is read from any contents that hold the earlier
  stages' values, so the pieces compose, and the result buffer ends at the last stage function of the arguments.
-/
import proofs.«141565_j47107201302761_2_alg».proof.Proof.RefRead
import Idealize.ShloMosaic.Lib.StableHlo.Run

set_option maxRecDepth 16384

noncomputable section

namespace Cert.ReferenceIdeal.Pieces

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lists of operations in a row. -/
theorem after_append : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_append l l₂]

variable (W : Valuation τ sig (Elt F))
variable (x0 : (⟨S50000x128, .f32⟩ : BufTy).Contents (Elt F)) (x1 : (⟨S2x800000, .i32⟩ : BufTy).Contents (Elt F))
  (x2 : (⟨S128x256, .f32⟩ : BufTy).Contents (Elt F)) (x3 : (⟨S256, .f32⟩ : BufTy).Contents (Elt F))
  (x4 : (⟨S256x64, .f32⟩ : BufTy).Contents (Elt F)) (x5 : (⟨S64, .f32⟩ : BufTy).Contents (Elt F))

/-! ## The edge words -/

theorem p1_v3 (h1 : W (Proc.devRef .tc main_arg1) = x1) : after (ops1 (F := F)) W (Proc.devRef .tc main_v3) = val_main_v3 (F := F) x1 := by
  after_results
  rw [h1]
  rfl
theorem p1_v6 (h1 : W (Proc.devRef .tc main_arg1) = x1) : after (ops1 (F := F)) W (Proc.devRef .tc main_v6) = val_main_v6 (F := F) x1 := by
  after_results
  rw [h1]
  rfl
theorem p1_arg0 : after (ops1 (F := F)) W (Proc.devRef .tc main_arg0) = W (Proc.devRef .tc main_arg0) := by after_results
theorem p1_arg2 : after (ops1 (F := F)) W (Proc.devRef .tc main_arg2) = W (Proc.devRef .tc main_arg2) := by after_results
theorem p1_arg3 : after (ops1 (F := F)) W (Proc.devRef .tc main_arg3) = W (Proc.devRef .tc main_arg3) := by after_results
theorem p1_arg4 : after (ops1 (F := F)) W (Proc.devRef .tc main_arg4) = W (Proc.devRef .tc main_arg4) := by after_results
theorem p1_arg5 : after (ops1 (F := F)) W (Proc.devRef .tc main_arg5) = W (Proc.devRef .tc main_arg5) := by after_results

/-! ## The scale vector -/

theorem p2_v16 (h6 : W (Proc.devRef .tc main_v6) = val_main_v6 (F := F) x1) :
    after (ops2 (F := F)) W (Proc.devRef .tc main_v16) = val_main_v16 (F := F) x1 := by
  after_results_simp
  rw [h6]
  rfl
theorem p2_v3 : after (ops2 (F := F)) W (Proc.devRef .tc main_v3) = W (Proc.devRef .tc main_v3) := by after_results_simp
theorem p2_v6 : after (ops2 (F := F)) W (Proc.devRef .tc main_v6) = W (Proc.devRef .tc main_v6) := by after_results_simp
theorem p2_arg0 : after (ops2 (F := F)) W (Proc.devRef .tc main_arg0) = W (Proc.devRef .tc main_arg0) := by after_results_simp
theorem p2_arg2 : after (ops2 (F := F)) W (Proc.devRef .tc main_arg2) = W (Proc.devRef .tc main_arg2) := by after_results_simp
theorem p2_arg3 : after (ops2 (F := F)) W (Proc.devRef .tc main_arg3) = W (Proc.devRef .tc main_arg3) := by after_results_simp
theorem p2_arg4 : after (ops2 (F := F)) W (Proc.devRef .tc main_arg4) = W (Proc.devRef .tc main_arg4) := by after_results_simp
theorem p2_arg5 : after (ops2 (F := F)) W (Proc.devRef .tc main_arg5) = W (Proc.devRef .tc main_arg5) := by after_results_simp

/-! ## The first layer, up to the second product -/

theorem p3_v50 (h0 : W (Proc.devRef .tc main_arg0) = x0) (h2 : W (Proc.devRef .tc main_arg2) = x2) (h3 : W (Proc.devRef .tc main_arg3) = x3)
    (h4 : W (Proc.devRef .tc main_arg4) = x4) (hs : W (Proc.devRef .tc main_v3) = val_main_v3 (F := F) x1)
    (hd : W (Proc.devRef .tc main_v6) = val_main_v6 (F := F) x1) (h16 : W (Proc.devRef .tc main_v16) = val_main_v16 (F := F) x1) :
    after (ops3 (F := F)) W (Proc.devRef .tc main_v50) = val_main_v50 (F := F) x0 x1 x2 x3 x4 := by
  after_results_simp
  rw [h0, h2, h3, h4, hs, hd, h16]
  rfl
theorem p3_v3 : after (ops3 (F := F)) W (Proc.devRef .tc main_v3) = W (Proc.devRef .tc main_v3) := by after_results_simp
theorem p3_v6 : after (ops3 (F := F)) W (Proc.devRef .tc main_v6) = W (Proc.devRef .tc main_v6) := by after_results_simp
theorem p3_v16 : after (ops3 (F := F)) W (Proc.devRef .tc main_v16) = W (Proc.devRef .tc main_v16) := by after_results_simp
theorem p3_arg5 : after (ops3 (F := F)) W (Proc.devRef .tc main_arg5) = W (Proc.devRef .tc main_arg5) := by after_results_simp

/-! ## The second layer, up to its bias -/

theorem p4_v81 (h5 : W (Proc.devRef .tc main_arg5) = x5) (hs : W (Proc.devRef .tc main_v3) = val_main_v3 (F := F) x1)
    (hd : W (Proc.devRef .tc main_v6) = val_main_v6 (F := F) x1) (h16 : W (Proc.devRef .tc main_v16) = val_main_v16 (F := F) x1)
    (h50 : W (Proc.devRef .tc main_v50) = val_main_v50 (F := F) x0 x1 x2 x3 x4) :
    after (ops4 (F := F)) W (Proc.devRef .tc main_v81) = val_main_v81 (F := F) x0 x1 x2 x3 x4 x5 := by
  after_results_simp
  rw [h5, hs, hd, h16, h50]
  rfl

/-! ## The log-softmax, in five pieces: the row maximum from -∞, the maximum once more against -∞, the differences,
    the sum of exponentials, the result -/

theorem p5_v0 (h81 : W (Proc.devRef .tc main_v81) = val_main_v81 (F := F) x0 x1 x2 x3 x4 x5) :
    after (ops5 (F := F)) W (Proc.devRef .tc main_call2_v0) = val_main_call2_v0 (F := F) x0 x1 x2 x3 x4 x5 := by
  after_results_simp
  rw [h81]
  simp only [cast_eq]
  rfl
theorem p5_v81 : after (ops5 (F := F)) W (Proc.devRef .tc main_v81) = W (Proc.devRef .tc main_v81) := by after_results_simp
theorem p6_v2 (h0' : W (Proc.devRef .tc main_call2_v0) = val_main_call2_v0 (F := F) x0 x1 x2 x3 x4 x5) :
    after (ops6 (F := F)) W (Proc.devRef .tc main_call2_v2) = val_main_call2_v2 (F := F) x0 x1 x2 x3 x4 x5 := by
  after_results_simp
  simp only [cast_eq]
  rw [h0']
  rfl
theorem p6_v81 : after (ops6 (F := F)) W (Proc.devRef .tc main_v81) = W (Proc.devRef .tc main_v81) := by after_results_simp
theorem p7_v5 (h81 : W (Proc.devRef .tc main_v81) = val_main_v81 (F := F) x0 x1 x2 x3 x4 x5)
    (h2' : W (Proc.devRef .tc main_call2_v2) = val_main_call2_v2 (F := F) x0 x1 x2 x3 x4 x5) :
    after (ops7 (F := F)) W (Proc.devRef .tc main_call2_v5) = val_main_call2_v5 (F := F) x0 x1 x2 x3 x4 x5 := by
  after_results_simp
  simp only [cast_eq]
  rw [h81, h2']
  rfl
theorem p8_v7 (h5' : W (Proc.devRef .tc main_call2_v5) = val_main_call2_v5 (F := F) x0 x1 x2 x3 x4 x5) :
    after (ops8 (F := F)) W (Proc.devRef .tc main_call2_v7) = val_main_call2_v7 (F := F) x0 x1 x2 x3 x4 x5 := by
  after_results_simp
  simp only [cast_eq]
  rw [h5']
  rfl
theorem p8_v5 : after (ops8 (F := F)) W (Proc.devRef .tc main_call2_v5) = W (Proc.devRef .tc main_call2_v5) := by after_results_simp
theorem p9_v82 (h5' : W (Proc.devRef .tc main_call2_v5) = val_main_call2_v5 (F := F) x0 x1 x2 x3 x4 x5)
    (h7' : W (Proc.devRef .tc main_call2_v7) = val_main_call2_v7 (F := F) x0 x1 x2 x3 x4 x5) :
    after (ops9 (F := F)) W (Proc.devRef .tc main_v82) = val_main_v82 (F := F) x0 x1 x2 x3 x4 x5 := by
  after_results_simp
  simp only [cast_eq]
  rw [h5', h7']
  rfl

/-! ## The whole line -/

/-- From contents that hold the arguments, the 120 operations leave the result buffer at the last stage function. -/
theorem value (h0 : W (Proc.devRef .tc main_arg0) = x0) (h1 : W (Proc.devRef .tc main_arg1) = x1) (h2 : W (Proc.devRef .tc main_arg2) = x2)
    (h3 : W (Proc.devRef .tc main_arg3) = x3) (h4 : W (Proc.devRef .tc main_arg4) = x4) (h5 : W (Proc.devRef .tc main_arg5) = x5) :
    after (ops (F := F)) W (Proc.devRef .tc main_v82) = val_main_v82 (F := F) x0 x1 x2 x3 x4 x5 := by
  rw [ops_split, after_append, after_append, after_append, after_append, after_append, after_append, after_append, after_append]
  have h81 : after (ops4 (F := F)) (after (ops3 (F := F)) (after (ops2 (F := F)) (after (ops1 (F := F)) W))) (Proc.devRef .tc main_v81)
      = val_main_v81 (F := F) x0 x1 x2 x3 x4 x5 := ?_
  · have h0' := p5_v0 _ x0 x1 x2 x3 x4 x5 h81
    have h2' := p6_v2 _ x0 x1 x2 x3 x4 x5 h0'
    have h5' := p7_v5 _ x0 x1 x2 x3 x4 x5 ((p6_v81 _).trans ((p5_v81 _).trans h81)) h2'
    exact p9_v82 _ x0 x1 x2 x3 x4 x5 ((p8_v5 _).trans h5') (p8_v7 _ x0 x1 x2 x3 x4 x5 h5')
  refine p4_v81 _ x0 x1 x2 x3 x4 x5 ?_ ?_ ?_ ?_ ?_
  · rw [p3_arg5, p2_arg5, p1_arg5]; exact h5
  · rw [p3_v3, p2_v3]; exact p1_v3 W x1 h1
  · rw [p3_v6, p2_v6]; exact p1_v6 W x1 h1
  · rw [p3_v16]; exact p2_v16 _ x1 (p1_v6 W x1 h1)
  · refine p3_v50 _ x0 x1 x2 x3 x4 ?_ ?_ ?_ ?_ ?_ ?_ ?_
    · rw [p2_arg0, p1_arg0]; exact h0
    · rw [p2_arg2, p1_arg2]; exact h2
    · rw [p2_arg3, p1_arg3]; exact h3
    · rw [p2_arg4, p1_arg4]; exact h4
    · rw [p2_v3]; exact p1_v3 W x1 h1
    · rw [p2_v6]; exact p1_v6 W x1 h1
    · exact p2_v16 _ x1 (p1_v6 W x1 h1)

end Cert.ReferenceIdeal.Pieces

end
-- ==== Proof.RRun.lean ====
/-
  The reference program's run, stated over its stage functions.

  @main is a straight line of 120 host operations.  Every weakly fair execution terminates, nothing faulting, with each
  buffer at the contents the operations leave, folded in order over the launch memory.  The fold at the result buffer is the
  last stage function of the arguments (read piece by piece in the pieces module); at an argument's buffer, which no
  operation writes, it is the launch contents.
-/
import proofs.«141565_j47107201302761_2_alg».proof.Proof.RPieces
import Idealize.ShloMosaic.Lib.StableHlo.Run

noncomputable section

namespace Cert.ReferenceIdeal.RunV

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 48000000 in
/-- On every device, for any float values, from any memory with zero counters: every weakly fair execution of @main
    terminates with the result at the last stage function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = val_main_v82 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (Cert.ReferenceIdeal.Pieces.value _ _ _ _ _ _ _ rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunV

end
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.HostLayer.lean ====
/-
  One aggregation stage of a graph convolution as the host computes it, read at an entry on the extended reals.

  The edges are a column of source words and a column of destination words.  A row gather takes, for edge e, the row the
  source word selects (read signed, clamped into the array); an accumulating scatter adds the row of edge e into the row
  the destination word denotes (read signed, dropped when it is not a row).  So node p receives the rows of the edges
  that land at p, the set landing p.  Two forms: the rows gathered as they are (the scaling done at the nodes, outside),
  and each gathered row multiplied by the product of the two end nodes' scales, themselves gathered from the scale vector
  at the source column and at the destination column with its negative words wrapped.  A destination word that lands at p
  is not negative, so wrapping leaves it alone and it selects p in the scale vector.
-/
import proofs.«141565_j47107201302761_2_alg».proof.Proof.LibRowTakeAdd
import proofs.«141565_j47107201302761_2_alg».proof.Proof.LibFlatTakePut
import proofs.«141565_j47107201302761_2_alg».proof.Proof.LibKeepdims
import proofs.«141565_j47107201302761_2_alg».proof.Proof.Spec
import Idealize.ShloMosaic.Lib.ValueIdx
import Idealize.ShloMosaic.PureOps.Ideal.Laws

noncomputable section

open scoped BigOperators

namespace Cert.GcnHost

open Idealize.ShloMosaic Idealize.ShloMosaic.ValueIdx Cert.RowTakeAdd Cert.FlatTakePut

variable {N R C : ℕ}

/-- The edges that land at node p: those whose destination word, read as a signed integer, is p. -/
def landing (dstC : IVec ⟨2, ![R, 1]⟩ 32) (p : Fin N) : Finset (Fin R) :=
  Finset.univ.filter fun e : Fin R => (dstC (ix2 e (0 : Fin 1))).toInt = (p.val : Int)

/-- The row of an N-row array that the word of edge e in a column of words selects. -/
def rowAt (hN : 0 < N) (col : IVec ⟨2, ![R, 1]⟩ 32) (e : Fin R) : Fin N := takeRow N hN (col (ix2 e (0 : Fin 1)))

/-- Rows gathered at the source column and accumulated at the destination column, onto zero: node p holds the sum of the
    rows its landing edges select. -/
theorem node_acc_apply (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (Z : FVec Ideal ⟨2, ![N, C]⟩ .f32) (hZ : ∀ i, Z i = 0)
    (K : FVec Ideal ⟨2, ![N, C]⟩ .f32) (srcC dstC : IVec ⟨2, ![R, 1]⟩ 32) (p : Fin N) (j : Fin C) :
    Host.scatterAdd (F := Ideal) (rowScatterDims N R C wfs) Z dstC (Host.gather (rowGatherDims N R C wfg) K srcC) (ix2 p j)
      = 0 + ∑ e ∈ landing dstC p, K (ix2 (rowAt hN srcC e) j) := by
  rw [scatterAdd_rows_apply, hZ]
  refine congrArg (0 + ·) (Finset.sum_congr rfl fun e _ => ?_)
  exact gather_rows_apply hN wfg K srcC e j

/-- The same stage with each gathered row multiplied by the product of the scales gathered at the edge's two ends. -/
theorem edge_acc_apply (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (wff : GatherDims.WF ⟨1, ![N]⟩ ⟨2, ![R, 1]⟩ ⟨1, ![R]⟩ [] [0] [] [0] [] 1 ![1])
    (hb1 : (⟨1, ![R]⟩ : Shape).BroadcastsInDim ⟨2, ![R, 1]⟩ ![0])
    (hb2 : (⟨2, ![R, 1]⟩ : Shape).BroadcastsInDim ⟨2, ![R, C]⟩ ![0, 1])
    (Z : FVec Ideal ⟨2, ![N, C]⟩ .f32) (hZ : ∀ i, Z i = 0)
    (H : FVec Ideal ⟨2, ![N, C]⟩ .f32) (dis : FVec Ideal ⟨1, ![N]⟩ .f32)
    (srcC dstC dstNC : IVec ⟨2, ![R, 1]⟩ 32) (p : Fin N) (j : Fin C) :
    Host.scatterAdd (F := Ideal) (rowScatterDims N R C wfs) Z dstC
        (mulf (Host.gather (rowGatherDims N R C wfg) H srcC)
          (broadcastInDim ⟨2, ![R, C]⟩ ![0, 1] hb2 (broadcastInDim ⟨2, ![R, 1]⟩ ![0] hb1
            (mulf (Host.gather (takeFlatDims N R wff) dis srcC) (Host.gather (takeFlatDims N R wff) dis dstNC)))))
        (ix2 p j)
      = 0 + ∑ e ∈ landing dstC p,
          H (ix2 (rowAt hN srcC e) j) * (dis (ix1 (rowAt hN srcC e)) * dis (ix1 (rowAt hN dstNC e))) := by
  rw [scatterAdd_rows_apply, hZ]
  refine congrArg (0 + ·) (Finset.sum_congr rfl fun e _ => ?_)
  refine (mulf_apply _ _ _).trans (congrArg₂ (· * ·) (gather_rows_apply hN wfg H srcC e j) ?_)
  refine (Cert.Keepdims.host_column_repeat_apply _ hb2 e j).trans ?_
  refine (Cert.Keepdims.host_column_apply _ hb1 e (0 : Fin 1)).trans ?_
  have hc : colIdx (ix1 e) = (ix2 e (0 : Fin 1) : (⟨2, ![R, 1]⟩ : Shape).Idx) := by
    funext a
    match a with
    | ⟨0, _⟩ => rfl
    | ⟨1, _⟩ => rfl
  refine (mulf_apply _ _ _).trans (congrArg₂ (· * ·) ?_ ?_)
  · refine (gather_flat_apply hN wff dis srcC (ix1 e)).trans (congrArg dis (congrArg ix1 (Fin.ext ?_)))
    show min (srcC (colIdx (ix1 e))).toInt.toNat (N - 1) = min (srcC (ix2 e (0 : Fin 1))).toInt.toNat (N - 1)
    rw [hc]
  · refine (gather_flat_apply hN wff dis dstNC (ix1 e)).trans (congrArg dis (congrArg ix1 (Fin.ext ?_)))
    show min (dstNC (colIdx (ix1 e))).toInt.toNat (N - 1) = min (dstNC (ix2 e (0 : Fin 1))).toInt.toNat (N - 1)
    rw [hc]

/-- A word that is not negative, read signed, is left alone by the wrap of negative indices. -/
theorem wrap_of_nonneg (w k : BitVec 32) (h : 0 ≤ w.toInt) :
    Scalar.select (IntOp.cmpi .slt w 0#32) (IntOp.addi w k) w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-- A word that denotes row p selects row p. -/
theorem takeRow_of_toInt (hN : 0 < N) (w : BitVec 32) (p : Fin N) (h : w.toInt = (p.val : Int)) : takeRow N hN w = p := by
  refine Fin.ext ?_
  show min w.toInt.toNat (N - 1) = p.val
  have := p.isLt
  rw [h]
  simp only [Int.toNat_natCast]
  omega

end Cert.GcnHost

end
-- ==== Proof.KApply.lean ====
/-
  The kernel program's result at an entry, as the node arrangement of the shared formulas.

  The result is the third region's function of the second aggregation, which gathers and accumulates the second region's
  result, and so on.  At an entry each region's function is a row formula, each host aggregation is the sum over the
  landing edges of the gathered rows, the scale column read at row i is the scale of node i, and a bias kept as a row
  reads its entry.  Put together this is, literally, the arrangement with the scaling at the nodes.
-/
import proofs.«141565_j47107201302761_2_alg».proof.Proof.KValue
import proofs.«141565_j47107201302761_2_alg».proof.Proof.HostLayer
import proofs.«141565_j47107201302761_2_alg».proof.Proof.LibKeepdims
import proofs.«141565_j47107201302761_2_alg».proof.Proof.Spec
import Idealize.ShloMosaic.Lib.ValueIdx
import Idealize.ShloMosaic.Lib.ValueLayout

set_option maxRecDepth 16384

noncomputable section

open scoped BigOperators

namespace Cert.KernelIdeal.Val

open Cert.KernelIdeal Cert.KernelIdeal.Gen Cert.KernelIdeal.Final
open Idealize.ShloMosaic Idealize.ShloMosaic.ValueIdx Cert.GcnHost

variable (x0 : FVec Ideal S50000x128 .f32) (x1 : IVec S2x800000 32) (x2 : FVec Ideal S128x256 .f32) (x3 : FVec Ideal S256 .f32)
  (x4 : FVec Ideal S256x64 .f32) (x5 : FVec Ideal S64 .f32)

theorem hN : 0 < 50000 := by decide

/-- The scale of node i, the source row of edge e, the edges that land at p. -/
def disK (i : Fin 50000) : EReal := disT x1 (ix1 i)
def srcK (e : Fin 850000) : Fin 50000 := rowAt hN (wrapCol (srcT x1)) e
def EK (p : Fin 50000) : Finset (Fin 850000) := landing (rawCol (dstT x1)) p
/-- The arguments as plain matrices and vectors. -/
def XK (i : Fin 50000) (a : Fin 128) : EReal := x0 (ix2 i a)
def W1K (a : Fin 128) (l : Fin 256) : EReal := x2 (ix2 a l)
def b1K (l : Fin 256) : EReal := x3 (ix1 l)
def W2K (l : Fin 256) (k : Fin 64) : EReal := x4 (ix2 l k)
def b2K (k : Fin 64) : EReal := x5 (ix1 k)

theorem zeros256 (i : S50000x256.Idx) :
    broadcastInDim S50000x256 ![] bcast_S_S50000x256 (constant (F := Ideal) S_ .f32 0x00000000#32) i = 0 :=
  (broadcastInDim_apply _ bcast_S_S50000x256 _ i ix0 (fun a => a.elim0)).trans Ideal.ofBits_zero_f32
theorem zeros64 (i : S50000x64.Idx) :
    broadcastInDim S50000x64 ![] bcast_S_S50000x64 (constant (F := Ideal) S_ .f32 0x00000000#32) i = 0 :=
  (broadcastInDim_apply _ bcast_S_S50000x64 _ i ix0 (fun a => a.elim0)).trans Ideal.ofBits_zero_f32

/-- The scale column at row i. -/
theorem D_apply (i : Fin 50000) : disCol x1 (ix2 i (0 : Fin 1)) = disK x1 i :=
  Cert.Keepdims.column_cast_apply (disT x1) shapeCasts_S50000_S50000x1 i

/-- The first region's result at an entry. -/
theorem K0_apply (j : Fin 50000) (l : Fin 256) :
    G0 x0 x2 (disCol x1) (ix2 j l) = Cert.Gcn.mm (XK x0) (W1K x2) j l * disK x1 j := by
  show (∑ a : Fin 128, x0 (ix2 j a) * x2 (ix2 a l)) * disCol x1 (ix2 j (0 : Fin 1)) = _
  rw [D_apply]
  rfl

/-- The first aggregation, scaled at the node. -/
theorem A1_apply (i : Fin 50000) (l : Fin 256) :
    disCol x1 (ix2 i (0 : Fin 1)) * agg256 x1 (G0 x0 x2 (disCol x1)) (ix2 i l)
      = Cert.Gcn.aggNode (disK x1) (srcK x1) (EK x1) (Cert.Gcn.mm (XK x0) (W1K x2)) i l := by
  unfold Cert.Gcn.aggNode
  rw [D_apply]
  refine congrArg (disK x1 i * ·) ?_
  refine (node_acc_apply (N := 50000) (R := 850000) (C := 256) hN gather_S50000x256_S850000x1_S850000x256_1_0_n_n_0_1_1256_wf
    scatter_S50000x256_S850000x1_S850000x256_1_0_0_1_wf _ zeros256 (G0 x0 x2 (disCol x1)) (wrapCol (srcT x1)) (rawCol (dstT x1)) i l).trans ?_
  refine congrArg (0 + ·) (Finset.sum_congr rfl fun e _ => ?_)
  exact K0_apply x0 x1 x2 _ l

/-- The second region's result at an entry. -/
theorem K1_apply (i : Fin 50000) (k : Fin 64) :
    G1 (agg256 x1 (G0 x0 x2 (disCol x1))) (disCol x1) (shapeCast S1x256 x3 shapeCasts_S256_S1x256) x4 (ix2 i k)
      = Cert.Gcn.mm (Cert.Gcn.hidden (b1K x3) (Ideal.ofBits .f32 0x00000000#32)
          (Cert.Gcn.aggNode (disK x1) (srcK x1) (EK x1) (Cert.Gcn.mm (XK x0) (W1K x2)))) (W2K x4) i k * disK x1 i := by
  show (∑ l : Fin 256, max (disCol x1 (ix2 i (0 : Fin 1)) * agg256 x1 (G0 x0 x2 (disCol x1)) (ix2 i l)
      + shapeCast S1x256 x3 shapeCasts_S256_S1x256 (ix2 (0 : Fin 1) l)) (Ideal.ofBits .f32 0x00000000#32) * x4 (ix2 l k))
    * disCol x1 (ix2 i (0 : Fin 1)) = _
  rw [D_apply]
  refine congrArg (· * disK x1 i) ?_
  unfold Cert.Gcn.mm Cert.Gcn.hidden
  refine Finset.sum_congr rfl fun l _ => congrArg (· * x4 (ix2 l k)) (congrArg₂ max (congrArg₂ (· + ·) ?_ ?_) rfl)
  · rw [← D_apply]; exact A1_apply x0 x1 x2 i l
  · exact shapeCast_a_1a_apply x3 shapeCasts_S256_S1x256 0 l

/-- The second aggregation, scaled at the node. -/
theorem A2_apply (p : Fin 50000) (k : Fin 64) :
    disCol x1 (ix2 p (0 : Fin 1))
        * agg64 x1 (G1 (agg256 x1 (G0 x0 x2 (disCol x1))) (disCol x1) (shapeCast S1x256 x3 shapeCasts_S256_S1x256) x4) (ix2 p k)
      = Cert.Gcn.aggNode (disK x1) (srcK x1) (EK x1)
          (Cert.Gcn.mm (Cert.Gcn.hidden (b1K x3) (Ideal.ofBits .f32 0x00000000#32)
            (Cert.Gcn.aggNode (disK x1) (srcK x1) (EK x1) (Cert.Gcn.mm (XK x0) (W1K x2)))) (W2K x4)) p k := by
  unfold Cert.Gcn.aggNode
  rw [D_apply]
  refine congrArg (disK x1 p * ·) ?_
  refine (node_acc_apply (N := 50000) (R := 850000) (C := 64) hN gather_S50000x64_S850000x1_S850000x64_1_0_n_n_0_1_164_wf
    scatter_S50000x64_S850000x1_S850000x64_1_0_0_1_wf _ zeros64 _ (wrapCol (srcT x1)) (rawCol (dstT x1)) p k).trans ?_
  refine congrArg (0 + ·) (Finset.sum_congr rfl fun e _ => ?_)
  exact K1_apply x0 x1 x2 x3 x4 _ k

/-- The kernel program's result at (p, k) is the node arrangement of the whole computation. -/
theorem KV_apply (p : Fin 50000) (k : Fin 64) :
    KV x0 x1 x2 x3 x4 x5 (ix2 p k)
      = Cert.Gcn.outNode (disK x1) (srcK x1) (EK x1) (XK x0) (W1K x2) (b1K x3) (W2K x4) (b2K x5)
          (Ideal.ofBits .f32 0x00000000#32) (Ideal.ofBits .f32 0xFF800000#32) p k := by
  unfold Cert.Gcn.outNode
  show Cert.Gcn.lsm (Ideal.ofBits .f32 0xFF800000#32) (fun k' : Fin 64 => disCol x1 (ix2 p (0 : Fin 1))
      * agg64 x1 (G1 (agg256 x1 (G0 x0 x2 (disCol x1))) (disCol x1) (shapeCast S1x256 x3 shapeCasts_S256_S1x256) x4) (ix2 p k')
      + shapeCast S1x64 x5 shapeCasts_S64_S1x64 (ix2 (0 : Fin 1) k')) k = _
  refine congrArg (fun z => Cert.Gcn.lsm (Ideal.ofBits .f32 0xFF800000#32) z k) (funext fun k' => congrArg₂ (· + ·) ?_ ?_)
  · exact A2_apply x0 x1 x2 x3 x4 p k'
  · exact shapeCast_a_1a_apply x5 shapeCasts_S64_S1x64 0 k'

/-- Every scale is a nonnegative real. -/
theorem disK_nonneg (i : Fin 50000) : 0 ≤ disK x1 i ∧ disK x1 i ≠ ⊤ := by
  have hr : ∀ (v : FVec Ideal S50000 .f32) (j : S50000.Idx), Host.rsqrt v j = FloatOps.hostUnary .rsqrt (v j) := fun _ _ => rfl
  unfold disK disT
  rw [select_apply, cmpf_apply, hr, maximumf_apply, Ideal.cmpf_def, Ideal.hostUnary_rsqrt_def]
  refine Cert.Gcn.scale_nonneg_ne_top _ _ _ _ ?_ ?_
  · exact (broadcastInDim_apply _ bcast_S_S50000 _ (ix1 i) ix0 (fun a => a.elim0)).trans Ideal.ofBits_zero_f32
  · exact (broadcastInDim_apply _ bcast_S_S50000 _ (ix1 i) ix0 (fun a => a.elim0)).trans Ideal.ofBits_zero_f32

end Cert.KernelIdeal.Val

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RValue.lean ====
/-
  The reference program's result read at an entry, on the extended reals.

  The reference scales at the edges.  Each aggregation stage gathers the rows of the transformed features at the source
  column, multiplies the row of edge e by dis[src e] · dis[dst e] (both gathered from the scale vector), and adds it into
  the row the destination word denotes; a bias is added, the first stage is cut off below at zero, and the second is
  followed by a row-wise log-softmax: the entry less the row's maximum, less the logarithm of the sum of the exponentials.
  Read at (p, k) this is the edge arrangement of the shared formulas.  A destination word that lands at p is not negative,
  so the wrap of negative words leaves it alone and the scale gathered for it is dis[p].
-/
import proofs.«141565_j47107201302761_2_alg».proof.Proof.RefRead
import proofs.«141565_j47107201302761_2_alg».proof.Proof.HostLayer
import proofs.«141565_j47107201302761_2_alg».proof.Proof.LibScatterConst
import proofs.«141565_j47107201302761_2_alg».proof.Proof.LibKeepdims
import proofs.«141565_j47107201302761_2_alg».proof.Proof.Spec
import Idealize.ShloMosaic.Lib.ValueIdx
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.ReadP
open Idealize.ShloMosaic Idealize.ShloMosaic.ValueIdx Cert.GcnHost Cert.RowTakeAdd Cert.FlatTakePut

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))

theorem hN : 0 < 50000 := by decide

/-- The scale of node i. -/
def disR (i : Fin 50000) : EReal := val_main_v16 (F := Ideal) x1 (ix1 i)
/-- The source row of edge e, and the row its destination word selects in the scale vector. -/
def srcR (e : Fin 850000) : Fin 50000 := rowAt hN (val_main_v23 (F := Ideal) x1) e
def dstR (e : Fin 850000) : Fin 50000 := rowAt hN (val_main_v30 (F := Ideal) x1) e
/-- The edges that land at node p. -/
def ER (p : Fin 50000) : Finset (Fin 850000) := landing (val_main_v9 (F := Ideal) x1) p

/-- The arguments as plain matrices and vectors. -/
def XR (i : Fin 50000) (a : Fin 128) : EReal := x0 (ix2 i a)
def W1R (a : Fin 128) (l : Fin 256) : EReal := x2 (ix2 a l)
def b1R (l : Fin 256) : EReal := x3 (ix1 l)
def W2R (l : Fin 256) (k : Fin 64) : EReal := x4 (ix2 l k)
def b2R (k : Fin 64) : EReal := x5 (ix1 k)

theorem zeros256 (i : S50000x256.Idx) : val_main_v43 (F := Ideal) i = 0 :=
  (val_main_v43_apply i).trans ((val_main_cst_9_apply _).trans Ideal.ofBits_zero_f32)

theorem zeros64 (i : S50000x64.Idx) : val_main_v76 (F := Ideal) i = 0 :=
  (val_main_v76_apply i).trans ((val_main_cst_16_apply _).trans Ideal.ofBits_zero_f32)

/-- The first product at an entry. -/
theorem v17_apply (i : Fin 50000) (l : Fin 256) :
    val_main_v17 (F := Ideal) x0 x2 (ix2 i l) = Cert.Gcn.mm (XR x0) (W1R x2) i l := by
  refine (val_main_v17_apply x0 x2 (ix2 i l)).trans ?_
  unfold Cert.Gcn.mm XR W1R
  refine Finset.sum_congr rfl fun a _ => congrArg₂ (· * ·) (congrArg x0 ?_) (congrArg x2 ?_)
  · funext b; match b with | ⟨0, _⟩ => rfl | ⟨1, _⟩ => rfl
  · funext b; match b with | ⟨0, _⟩ => rfl | ⟨1, _⟩ => rfl

/-- The first aggregation at an entry: the edge arrangement. -/
theorem v45_apply (p : Fin 50000) (j : Fin 256) :
    val_main_v45 (F := Ideal) x0 x1 x2 (ix2 p j)
      = Cert.Gcn.aggEdge (disR x1) (srcR x1) (dstR x1) (ER x1) (Cert.Gcn.mm (XR x0) (W1R x2)) p j := by
  have h := edge_acc_apply (N := 50000) (R := 850000) (C := 256) hN gather_S50000x256_S850000x1_S850000x256_1_0_n_n_0_1_1256_wf
    scatter_S50000x256_S850000x1_S850000x256_1_0_0_1_wf gather_S50000_S850000x1_S850000_n_0_n_n_0_1_1_wf
    bcast_S850000_S850000x1_0 bcast_S850000x1_S850000x256_0_1 (val_main_v43 (F := Ideal)) zeros256
    (val_main_v17 (F := Ideal) x0 x2) (val_main_v16 (F := Ideal) x1) (val_main_v23 (F := Ideal) x1) (val_main_v9 (F := Ideal) x1)
    (val_main_v30 (F := Ideal) x1) p j
  refine (show val_main_v45 (F := Ideal) x0 x1 x2 (ix2 p j) = _ from h).trans ?_
  unfold Cert.Gcn.aggEdge disR srcR dstR ER
  refine congrArg (0 + ·) (Finset.sum_congr rfl fun e _ => ?_)
  rw [v17_apply]

/-- The first layer's activations at an entry. -/
theorem v49_apply (p : Fin 50000) (l : Fin 256) :
    val_main_v49 (F := Ideal) x0 x1 x2 x3 (ix2 p l)
      = Cert.Gcn.hidden (b1R x3) (Ideal.ofBits .f32 0x00000000#32)
          (Cert.Gcn.aggEdge (disR x1) (srcR x1) (dstR x1) (ER x1) (Cert.Gcn.mm (XR x0) (W1R x2))) p l := by
  unfold Cert.Gcn.hidden
  refine (val_main_v49_apply x0 x1 x2 x3 (ix2 p l)).trans (congrArg₂ max ?_ ?_)
  · refine (val_main_v48_apply x0 x1 x2 x3 (ix2 p l)).trans (congrArg₂ (· + ·) (v45_apply x0 x1 x2 p l) ?_)
    refine (val_main_v47_apply x3 _).trans ((val_main_v46_apply x3 _).trans (congrArg x3 ?_))
    funext b; match b with | ⟨0, _⟩ => rfl
  · exact (val_main_call1_v0_apply _).trans (val_main_call1_cst_apply _)

/-- The second product at an entry. -/
theorem v50_apply (p : Fin 50000) (k : Fin 64) :
    val_main_v50 (F := Ideal) x0 x1 x2 x3 x4 (ix2 p k)
      = Cert.Gcn.mm (Cert.Gcn.hidden (b1R x3) (Ideal.ofBits .f32 0x00000000#32)
          (Cert.Gcn.aggEdge (disR x1) (srcR x1) (dstR x1) (ER x1) (Cert.Gcn.mm (XR x0) (W1R x2)))) (W2R x4) p k := by
  refine (val_main_v50_apply x0 x1 x2 x3 x4 (ix2 p k)).trans ?_
  unfold Cert.Gcn.mm W2R
  refine Finset.sum_congr rfl fun l _ => congrArg₂ (· * ·) ?_ (congrArg x4 ?_)
  · refine (congrArg (val_main_v49 (F := Ideal) x0 x1 x2 x3) ?_).trans (v49_apply x0 x1 x2 x3 p l)
    funext b; match b with | ⟨0, _⟩ => rfl | ⟨1, _⟩ => rfl
  · funext b; match b with | ⟨0, _⟩ => rfl | ⟨1, _⟩ => rfl

/-- The second aggregation plus its bias at an entry. -/
theorem v81_apply (p : Fin 50000) (k : Fin 64) :
    val_main_v81 (F := Ideal) x0 x1 x2 x3 x4 x5 (ix2 p k)
      = Cert.Gcn.aggEdge (disR x1) (srcR x1) (dstR x1) (ER x1)
          (Cert.Gcn.mm (Cert.Gcn.hidden (b1R x3) (Ideal.ofBits .f32 0x00000000#32)
            (Cert.Gcn.aggEdge (disR x1) (srcR x1) (dstR x1) (ER x1) (Cert.Gcn.mm (XR x0) (W1R x2)))) (W2R x4)) p k
        + b2R x5 k := by
  refine (val_main_v81_apply x0 x1 x2 x3 x4 x5 (ix2 p k)).trans (congrArg₂ (· + ·) ?_ ?_)
  · have h := edge_acc_apply (N := 50000) (R := 850000) (C := 64) hN gather_S50000x64_S850000x1_S850000x64_1_0_n_n_0_1_164_wf
      scatter_S50000x64_S850000x1_S850000x64_1_0_0_1_wf gather_S50000_S850000x1_S850000_n_0_n_n_0_1_1_wf
      bcast_S850000_S850000x1_0 bcast_S850000x1_S850000x64_0_1 (val_main_v76 (F := Ideal)) zeros64
      (val_main_v50 (F := Ideal) x0 x1 x2 x3 x4) (val_main_v16 (F := Ideal) x1) (val_main_v23 (F := Ideal) x1) (val_main_v9 (F := Ideal) x1)
      (val_main_v30 (F := Ideal) x1) p k
    refine (show val_main_v78 (F := Ideal) x0 x1 x2 x3 x4 (ix2 p k) = _ from h).trans ?_
    unfold Cert.Gcn.aggEdge disR srcR dstR ER
    refine congrArg (0 + ·) (Finset.sum_congr rfl fun e _ => ?_)
    rw [v50_apply]
    rfl
  · refine (val_main_v80_apply x5 _).trans ((val_main_v79_apply x5 _).trans (congrArg x5 ?_))
    funext b; match b with | ⟨0, _⟩ => rfl

/-- The row's maximum, taken from -∞ and once more against -∞. -/
theorem rowmax_apply (p : Fin 50000) :
    val_main_call2_v2 (F := Ideal) x0 x1 x2 x3 x4 x5 (ix1 p)
      = max (Ideal.ofBits .f32 0xFF800000#32) ((Finset.univ : Finset (Fin 64)).fold max (Ideal.ofBits .f32 0xFF800000#32)
          (fun q => val_main_v81 (F := Ideal) x0 x1 x2 x3 x4 x5 (ix2 p q))) := by
  refine (val_main_call2_v2_apply x0 x1 x2 x3 x4 x5 (ix1 p)).trans (congrArg₂ max ?_ ?_)
  · exact (val_main_call2_v1_apply _).trans (val_main_call2_cst_0_apply _)
  · unfold val_main_call2_v0
    exact Cert.ScatterConst.hostReduce_max_rows (val_main_v81 (F := Ideal) x0 x1 x2 x3 x4 x5) (val_main_call2_cst (F := Ideal))
      reducesTo_S50000x64_S50000_d1 (by decide) h_S_ p

/-- An entry less its row's maximum. -/
theorem v5_apply (p : Fin 50000) (k : Fin 64) :
    val_main_call2_v5 (F := Ideal) x0 x1 x2 x3 x4 x5 (ix2 p k)
      = val_main_v81 (F := Ideal) x0 x1 x2 x3 x4 x5 (ix2 p k) - val_main_call2_v2 (F := Ideal) x0 x1 x2 x3 x4 x5 (ix1 p) := by
  refine (val_main_call2_v5_apply x0 x1 x2 x3 x4 x5 (ix2 p k)).trans (congrArg (val_main_v81 (F := Ideal) x0 x1 x2 x3 x4 x5 (ix2 p k) - ·) ?_)
  refine (val_main_call2_v4_apply x0 x1 x2 x3 x4 x5 _).trans ((val_main_call2_v3_apply x0 x1 x2 x3 x4 x5 _).trans
    (congrArg (val_main_call2_v2 (F := Ideal) x0 x1 x2 x3 x4 x5) ?_))
  funext b; match b with | ⟨0, _⟩ => rfl

/-- The result at an entry: the log-softmax of the row of the second aggregation plus its bias. -/
theorem v82_lsm (p : Fin 50000) (k : Fin 64) :
    val_main_v82 (F := Ideal) x0 x1 x2 x3 x4 x5 (ix2 p k)
      = Cert.Gcn.lsm (Ideal.ofBits .f32 0xFF800000#32) (fun k' => val_main_v81 (F := Ideal) x0 x1 x2 x3 x4 x5 (ix2 p k')) k := by
  unfold Cert.Gcn.lsm
  refine (val_main_v82_apply x0 x1 x2 x3 x4 x5 (ix2 p k)).trans (congrArg₂ (· - ·) ?_ ?_)
  · exact (v5_apply x0 x1 x2 x3 x4 x5 p k).trans (congrArg (val_main_v81 (F := Ideal) x0 x1 x2 x3 x4 x5 (ix2 p k) - ·) (rowmax_apply x0 x1 x2 x3 x4 x5 p))
  · refine (val_main_call2_v10_apply x0 x1 x2 x3 x4 x5 _).trans ?_
    refine (val_main_call2_v9_apply x0 x1 x2 x3 x4 x5 _).trans ?_
    rw [Ideal.hostUnary_log_def]
    refine congrArg Ideal.log ?_
    refine (val_main_call2_v8_apply x0 x1 x2 x3 x4 x5 _).trans ?_
    have hi : idx_main_call2_v8 (idx_main_call2_v10 (ix2 p k)) = ix1 p := by
      funext b; match b with | ⟨0, _⟩ => rfl
    rw [hi]
    refine (val_main_call2_v7_apply x0 x1 x2 x3 x4 x5 (ix1 p)).trans ?_
    have hz : val_main_call2_cst_1 (F := Ideal) (Shape.Idx.first h_S_) = 0 :=
      (val_main_call2_cst_1_apply _).trans Ideal.ofBits_zero_f32
    rw [hz, zero_add]
    refine Finset.sum_congr rfl fun d _ => ?_
    have hd : idx_main_call2_v7 (ix1 p) d = ix2 p d := by
      funext b; match b with | ⟨0, _⟩ => rfl | ⟨1, _⟩ => rfl
    rw [hd]
    refine (val_main_call2_v6_apply x0 x1 x2 x3 x4 x5 (ix2 p d)).trans ?_
    rw [Ideal.hostUnary_exp_def]
    refine congrArg Ideal.exp ?_
    exact (v5_apply x0 x1 x2 x3 x4 x5 p d).trans (congrArg (val_main_v81 (F := Ideal) x0 x1 x2 x3 x4 x5 (ix2 p d) - ·) (rowmax_apply x0 x1 x2 x3 x4 x5 p))

/-- The reference's result at (p, k) is the edge arrangement of the whole computation. -/
theorem result_apply (p : Fin 50000) (k : Fin 64) :
    val_main_v82 (F := Ideal) x0 x1 x2 x3 x4 x5 (ix2 p k)
      = Cert.Gcn.outEdge (disR x1) (srcR x1) (dstR x1) (ER x1) (XR x0) (W1R x2) (b1R x3) (W2R x4) (b2R x5)
          (Ideal.ofBits .f32 0x00000000#32) (Ideal.ofBits .f32 0xFF800000#32) p k := by
  refine (v82_lsm x0 x1 x2 x3 x4 x5 p k).trans ?_
  unfold Cert.Gcn.outEdge
  exact congrArg (fun z => Cert.Gcn.lsm (Ideal.ofBits .f32 0xFF800000#32) z k) (funext fun k' => v81_apply x0 x1 x2 x3 x4 x5 p k')

/-- Every scale is a nonnegative real. -/
theorem disR_nonneg (i : Fin 50000) : 0 ≤ disR x1 i ∧ disR x1 i ≠ ⊤ := by
  unfold disR
  rw [val_main_v16_apply, val_main_v12_apply, val_main_v15_apply, val_main_v14_apply, Ideal.cmpf_def,
    Ideal.hostUnary_rsqrt_def, Ideal.maximumf_def]
  refine Cert.Gcn.scale_nonneg_ne_top _ _ _ _ ?_ ?_
  · exact (val_main_v11_apply _).trans ((val_main_cst_1_apply _).trans Ideal.ofBits_zero_f32)
  · exact (val_main_call0_v1_apply _).trans ((val_main_call0_v0_apply _).trans ((val_main_cst_3_apply _).trans Ideal.ofBits_zero_f32))

/-- An edge that lands at p has its destination's scale read at p. -/
theorem dstR_of_landing (p : Fin 50000) (e : Fin 850000) (he : e ∈ ER x1 p) : dstR x1 e = p := by
  have hw : (val_main_v6 (F := Ideal) x1 (ix1 e)).toInt = (p.val : Int) := by
    have := (Finset.mem_filter.mp he).2
    refine Eq.trans (congrArg BitVec.toInt ?_) this
    refine ((val_main_v9_apply x1 _).trans (congrArg (val_main_v6 (F := Ideal) x1) ?_)).symm
    funext b; match b with | ⟨0, _⟩ => rfl
  unfold dstR rowAt
  refine takeRow_of_toInt hN _ p ?_
  have hv : val_main_v30 (F := Ideal) x1 (ix2 e (0 : Fin 1)) = val_main_v6 (F := Ideal) x1 (ix1 e) := by
    refine (val_main_v30_apply x1 _).trans ?_
    have hi : idx_main_v30 (ix2 e (0 : Fin 1)) = ix1 e := by
      funext b; match b with | ⟨0, _⟩ => rfl
    rw [hi]
    refine (val_main_v29_apply x1 (ix1 e)).trans ?_
    have h26 : val_main_v26 (F := Ideal) x1 (ix1 e) = IntOp.cmpi .slt (val_main_v6 (F := Ideal) x1 (ix1 e)) 0#32 :=
      (val_main_v26_apply x1 (ix1 e)).trans (congrArg (IntOp.cmpi .slt _) ((val_main_v25_apply _).trans (val_main_c_5_apply _)))
    have h28 : val_main_v28 (F := Ideal) x1 (ix1 e) = IntOp.addi (val_main_v6 (F := Ideal) x1 (ix1 e)) 50000#32 :=
      (val_main_v28_apply x1 (ix1 e)).trans (congrArg (IntOp.addi _) ((val_main_v27_apply _).trans (val_main_c_6_apply _)))
    rw [h26, h28]
    exact wrap_of_nonneg _ _ (by rw [hw]; exact Int.natCast_nonneg _)
  rw [hv]
  exact hw

end Cert.ReferenceIdeal.RefVal

end
-- ==== Proof.Bridge.lean ====
/-
  The two programs compute one function of the arguments.

  The kernel program's result is the node arrangement of the graph convolution, the reference's the edge arrangement, of
  the same scale vector, the same source rows and the same landing sets: both programs compute the edge words and the
  degrees by the same host operations.  The two arrangements agree because every scale is a nonnegative real (it is a
  reciprocal square root of a positive number, or zero) and an edge that lands at p has its destination's scale read at p.
-/
import proofs.«141565_j47107201302761_2_alg».proof.Proof.KApply
import proofs.«141565_j47107201302761_2_alg».proof.Proof.RValue
import proofs.«141565_j47107201302761_2_alg».proof.Proof.Spec

set_option maxRecDepth 16384

noncomputable section

namespace Cert.Bridge

open Idealize.ShloMosaic Idealize.ShloMosaic.ValueIdx
open Cert.KernelIdeal.Val Cert.ReferenceIdeal.RefVal

variable (x0 : FVec Ideal Cert.KernelIdeal.S50000x128 .f32) (x1 : IVec Cert.KernelIdeal.S2x800000 32)
  (x2 : FVec Ideal Cert.KernelIdeal.S128x256 .f32) (x3 : FVec Ideal Cert.KernelIdeal.S256 .f32)
  (x4 : FVec Ideal Cert.KernelIdeal.S256x64 .f32) (x5 : FVec Ideal Cert.KernelIdeal.S64 .f32)

/-- The two programs' scale vectors, source columns and destination columns are the same host terms of the edge list. -/
theorem dis_same : disT x1 = Cert.ReferenceIdeal.ReadP.val_main_v16 (F := Ideal) x1 := rfl
theorem src_same : wrapCol (srcT x1) = Cert.ReferenceIdeal.ReadP.val_main_v23 (F := Ideal) x1 := rfl
theorem dst_same : rawCol (dstT x1) = Cert.ReferenceIdeal.ReadP.val_main_v9 (F := Ideal) x1 := rfl

theorem disK_eq : disK x1 = disR x1 := by
  funext i; unfold disK disR; rw [dis_same]
theorem srcK_eq : srcK x1 = srcR x1 := by
  funext e; unfold srcK srcR; rw [src_same]
theorem EK_eq : EK x1 = ER x1 := by
  funext p; unfold EK ER; rw [dst_same]

/-- The kernel program's result function is the reference's last stage function. -/
theorem result_same : KV x0 x1 x2 x3 x4 x5 = Cert.ReferenceIdeal.ReadP.val_main_v82 (F := Ideal) x0 x1 x2 x3 x4 x5 := by
  funext i
  obtain ⟨p, k, rfl⟩ : ∃ (p : Fin 50000) (k : Fin 64), i = ix2 p k := ⟨i 0, i 1, eq_ix2 i⟩
  refine (KV_apply x0 x1 x2 x3 x4 x5 p k).trans ?_
  refine Eq.trans ?_ (result_apply x0 x1 x2 x3 x4 x5 p k).symm
  rw [disK_eq, srcK_eq, EK_eq]
  exact congrFun (congrFun (Cert.Gcn.outNode_eq_outEdge (disR x1) (srcR x1) (dstR x1) (ER x1) (disR_nonneg x1)
    (fun p e he => dstR_of_landing x1 p e he) (XR x0) (W1R x2) (b1R x3) (W2R x4) (b2R x5) _ _) p) k

end Cert.Bridge

end
-- ==== Proof.lean ====
/-
  Equivalence, over the extended reals, of a two-layer graph convolution kernel and its reference.

  Both programs take node features x, an edge list, and two layers' weights and biases.  Self loops are appended to the
  edges, deg is the number of edges landing at each node, and dis = 1 / sqrt deg (zero at a node nothing lands at).  A
  layer transforms the rows by a matrix product and then aggregates, for every node, the rows of the edges landing there,
  each weighted by dis of its source times dis of its destination; the first layer adds a bias and cuts off below at
  zero, the second adds a bias and takes a row-wise log-softmax.

  The reference weights each edge's row by the product of its two scales.  The kernel program scales at the nodes instead:
  its three kernels multiply the transformed rows by dis before the host gathers and sums them, and multiply the summed
  row by dis again afterwards, fused with the next layer's product (or the log-softmax).  On the extended reals a factor
  that is nonnegative and not +∞ moves across a finite sum, and dis is such a factor whatever the degree is; so
      dis[p] · Σ_e (h[src e] · dis[src e]) = Σ_e h[src e] · (dis[src e] · dis[p]),
  and the two programs compute one function of their arguments, with no use of the inputs' finiteness.  A change of float
  format is the identity and a matrix product onto zero is the plain sum of products, for the kernels' products as for
  the reference's.

  The kernel program's three frames and its run come from the launch theorem for several kernel regions; each region's
  result array is read as one whole-array function, the host stretches between them from any contents.  The reference's
  run is read in five pieces over its stage functions.  No rewrite was applied when the kernel was idealized, so that
  conjunct is trivial.
-/
import proofs.«141565_j47107201302761_2_alg».proof.Defs
import proofs.«141565_j47107201302761_2_alg».proof.Proof.Gen.Kernel
import proofs.«141565_j47107201302761_2_alg».proof.Proof.Gen.Kernel.Frame
import proofs.«141565_j47107201302761_2_alg».proof.Proof.Gen.KernelIdeal
import proofs.«141565_j47107201302761_2_alg».proof.Proof.Gen.KernelIdeal.Frame
import proofs.«141565_j47107201302761_2_alg».proof.Proof.Gen.ReferenceIdeal
import proofs.«141565_j47107201302761_2_alg».proof.Proof.Gen.Pre_finite_inputs
import proofs.«141565_j47107201302761_2_alg».proof.Proof.KRun
import proofs.«141565_j47107201302761_2_alg».proof.Proof.KValue
import proofs.«141565_j47107201302761_2_alg».proof.Proof.RRun
import proofs.«141565_j47107201302761_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RunV.run (F := Ideal) m ρ)

/-- Both programs end with their result at one function of arguments that agree. -/
theorem algebraic : Cert.algebraic_KernelIdeal_ReferenceIdeal := by
  intro m ρ m' ρ' _ hagree
  refine ⟨fun c => Cert.KernelIdeal.Val.KV (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.result_eq m ρ c), (h c).2⟩) (Cert.KernelIdeal.RunV.run m ρ)
  · refine (θ_run Cert.ReferenceIdeal.defs _ _).mono (fun _ h c => ⟨(h c).1.trans ?_, (h c).2⟩)
      (Cert.ReferenceIdeal.RunV.run (F := Ideal) m' ρ')
    rw [(hagree c).1, (hagree c).2.1, (hagree c).2.2.1, (hagree c).2.2.2.1, (hagree c).2.2.2.2.1, (hagree c).2.2.2.2.2]
    exact (Cert.Bridge.result_same _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
